-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3 : Shape := ⟨2, ![100000, 3]⟩
abbrev S200000x3 : Shape := ⟨2, ![200000, 3]⟩
abbrev S100000x256 : Shape := ⟨2, ![100000, 256]⟩
abbrev S500000 : Shape := ⟨1, ![500000]⟩
abbrev S259x256 : Shape := ⟨2, ![259, 256]⟩
abbrev S256 : Shape := ⟨1, ![256]⟩
abbrev S256x256 : Shape := ⟨2, ![256, 256]⟩
abbrev S256x2 : Shape := ⟨2, ![256, 2]⟩
abbrev S2 : Shape := ⟨1, ![2]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel
  bcast_S_S200000x3 : S_.BroadcastsInDim S200000x3 (![] : Fin 0 → Fin S200000x3.rank)
  reducesTo_S200000x3_S_d0_1 : S200000x3.ReducesTo [0, 1] S_
  bcast_S_S100000x256 : S_.BroadcastsInDim S100000x256 (![] : Fin 0 → Fin S100000x256.rank)
  reducesTo_S100000x256_S_d0_1 : S100000x256.ReducesTo [0, 1] S_
  bcast_S_S259x256 : S_.BroadcastsInDim S259x256 (![] : Fin 0 → Fin S259x256.rank)
  reducesTo_S259x256_S_d0_1 : S259x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x2 : S_.BroadcastsInDim S256x2 (![] : Fin 0 → Fin S256x2.rank)
  reducesTo_S256x2_S_d0_1 : S256x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_v48 : IVec S_ 1) (main_v49 : FVec F S2 .f32) (main_v50 : FVec F S2 .f32) : IVec S_ 1 :=
  let main_v51 : IVec S2 1 := cmpf .olt main_v49 main_v50
  let main_c_19 : IVec S_ 1 := constantI S_ 1 1#1
  let main_v52 : IVec S_ 1 := (fun x v => Host.reduce IntOp.andi x v reducesTo_S2_S_d0 h_S_) main_v51 main_c_19
  let main_v53 : IVec S_ 1 := andi main_v48 main_v52
  main_v53

def fn_part2 {F : FTy → Type} [FloatOps F] (main_arg9 : FVec F S256x256 .f32) (main_arg10 : FVec F S256 .f32) (main_arg11 : FVec F S256x2 .f32) (main_arg12 : FVec F S2 .f32) (main_v33 : IVec S_ 1) : IVec S_ 1 :=
  let main_v34 : FVec F S256x256 .f32 := Host.absf main_arg9
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg10
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x2 .f32 := Host.absf main_arg11
  let main_cst_16 : FVec F S_ .f32 := constant S_ .f32 0x7F800000#32
  let main_v45 : FVec F S256x2 .f32 := broadcastInDim S256x2 ![] bcast_S_S256x2 main_cst_16
  let main_v46 : IVec S256x2 1 := cmpf .olt main_v44 main_v45
  let main_c_17 : IVec S_ 1 := constantI S_ 1 1#1
  let main_v47 : IVec S_ 1 := (fun x v => Host.reduce IntOp.andi x v reducesTo_S256x2_S_d0_1 h_S_) main_v46 main_c_17
  let main_v48 : IVec S_ 1 := andi main_v43 main_v47
  let main_v49 : FVec F S2 .f32 := Host.absf main_arg12
  let main_cst_18 : FVec F S_ .f32 := constant S_ .f32 0x7F800000#32
  let main_v50 : FVec F S2 .f32 := broadcastInDim S2 ![] bcast_S_S2 main_cst_18
  fn_part3 (F := F) main_v48 main_v49 main_v50

def fn_part1 {F : FTy → Type} [FloatOps F] (main_arg6 : FVec F S256 .f32) (main_arg7 : FVec F S256x256 .f32) (main_arg8 : FVec F S256 .f32) (main_arg9 : FVec F S256x256 .f32) (main_arg10 : FVec F S256 .f32) (main_arg11 : FVec F S256x2 .f32) (main_arg12 : FVec F S2 .f32) (main_v13 : IVec S_ 1) (main_v16 : IVec S259x256 1) : IVec S_ 1 :=
  let main_c_5 : IVec S_ 1 := constantI S_ 1 1#1
  let main_v17 : IVec S_ 1 := (fun x v => Host.reduce IntOp.andi x v reducesTo_S259x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg7
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x3 .f32) (main_arg1 : FVec F S200000x3 .f32) (main_arg2 : FVec F S100000x256 .f32) (main_arg3 : IVec S500000 32) (main_arg4 : IVec S500000 32) (main_arg5 : FVec F S259x256 .f32) (main_arg6 : FVec F S256 .f32) (main_arg7 : FVec F S256x256 .f32) (main_arg8 : FVec F S256 .f32) (main_arg9 : FVec F S256x256 .f32) (main_arg10 : FVec F S256 .f32) (main_arg11 : FVec F S256x2 .f32) (main_arg12 : FVec F S2 .f32) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  let main_v4 : FVec F S200000x3 .f32 := Host.absf main_arg1
  let main_cst_0 : FVec F S_ .f32 := constant S_ .f32 0x7F800000#32
  let main_v5 : FVec F S200000x3 .f32 := broadcastInDim S200000x3 ![] bcast_S_S200000x3 main_cst_0
  let main_v6 : IVec S200000x3 1 := cmpf .olt main_v4 main_v5
  let main_c_1 : IVec S_ 1 := constantI S_ 1 1#1
  let main_v7 : IVec S_ 1 := (fun x v => Host.reduce IntOp.andi x v reducesTo_S200000x3_S_d0_1 h_S_) main_v6 main_c_1
  let main_v8 : IVec S_ 1 := andi main_v3 main_v7
  let main_v9 : FVec F S100000x256 .f32 := Host.absf main_arg2
  let main_cst_2 : FVec F S_ .f32 := constant S_ .f32 0x7F800000#32
  let main_v10 : FVec F S100000x256 .f32 := broadcastInDim S100000x256 ![] bcast_S_S100000x256 main_cst_2
  let main_v11 : IVec S100000x256 1 := cmpf .olt main_v9 main_v10
  let main_c_3 : IVec S_ 1 := constantI S_ 1 1#1
  let main_v12 : IVec S_ 1 := (fun x v => Host.reduce IntOp.andi x v reducesTo_S100000x256_S_d0_1 h_S_) main_v11 main_c_3
  let main_v13 : IVec S_ 1 := andi main_v8 main_v12
  let main_v14 : FVec F S259x256 .f32 := Host.absf main_arg5
  let main_cst_4 : FVec F S_ .f32 := constant S_ .f32 0x7F800000#32
  let main_v15 : FVec F S259x256 .f32 := broadcastInDim S259x256 ![] bcast_S_S259x256 main_cst_4
  let main_v16 : IVec S259x256 1 := cmpf .olt main_v14 main_v15
  fn_part1 (F := F) main_arg6 main_arg7 main_arg8 main_arg9 main_arg10 main_arg11 main_arg12 main_v13 main_v16
-- ==== Kernel.lean ====
abbrev S100000x3 : Shape := ⟨2, ![100000, 3]⟩
abbrev S200000x3 : Shape := ⟨2, ![200000, 3]⟩
abbrev S100000x256 : Shape := ⟨2, ![100000, 256]⟩
abbrev S500000 : Shape := ⟨1, ![500000]⟩
abbrev S259x256 : Shape := ⟨2, ![259, 256]⟩
abbrev S256 : Shape := ⟨1, ![256]⟩
abbrev S256x256 : Shape := ⟨2, ![256, 256]⟩
abbrev S256x2 : Shape := ⟨2, ![256, 2]⟩
abbrev S2 : Shape := ⟨1, ![2]⟩
abbrev S_ : Shape := ⟨0, ![]⟩
abbrev S500000x1 : Shape := ⟨2, ![500000, 1]⟩
abbrev S500000x3 : Shape := ⟨2, ![500000, 3]⟩
abbrev S500000x256 : Shape := ⟨2, ![500000, 256]⟩
abbrev S3x256 : Shape := ⟨2, ![3, 256]⟩
abbrev S256x1 : Shape := ⟨2, ![256, 1]⟩
abbrev S1 : Shape := ⟨1, ![1]⟩
abbrev S4000x3 : Shape := ⟨2, ![4000, 3]⟩
abbrev S4000x256 : Shape := ⟨2, ![4000, 256]⟩
abbrev S4000x1 : Shape := ⟨2, ![4000, 1]⟩
abbrev S1x256 : Shape := ⟨2, ![1, 256]⟩
abbrev S1x1 : Shape := ⟨2, ![1, 1]⟩

abbrev nBuf : Space → Nat
  | .hbm => 48
  | .vmem => 15
  | .smem => 0
  | _ => 0

abbrev bufTy : (tb : Table) → Fin (tcTables nBuf tb) → BufTy
  | .hbm, ⟨0, _⟩ => ⟨S100000x3, .f32⟩
  | .hbm, ⟨1, _⟩ => ⟨S200000x3, .f32⟩
  | .hbm, ⟨2, _⟩ => ⟨S100000x256, .f32⟩
  | .hbm, ⟨3, _⟩ => ⟨S500000, .i32⟩
  | .hbm, ⟨4, _⟩ => ⟨S500000, .i32⟩
  | .hbm, ⟨5, _⟩ => ⟨S259x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256x2, .f32⟩
  | .hbm, ⟨12, _⟩ => ⟨S2, .f32⟩
  | .hbm, ⟨13, _⟩ => ⟨S100000x256, .bf16⟩
  | .hbm, ⟨14, _⟩ => ⟨S_, .i32⟩
  | .hbm, ⟨15, _⟩ => ⟨S500000, .i32⟩
  | .hbm, ⟨16, _⟩ => ⟨S500000, .i1⟩
  | .hbm, ⟨17, _⟩ => ⟨S_, .i32⟩
  | .hbm, ⟨18, _⟩ => ⟨S500000, .i32⟩
  | .hbm, ⟨19, _⟩ => ⟨S500000, .i32⟩
  | .hbm, ⟨20, _⟩ => ⟨S500000, .i32⟩
  | .hbm, ⟨21, _⟩ => ⟨S500000x1, .i32⟩
  | .hbm, ⟨22, _⟩ => ⟨S500000x3, .f32⟩
  | .hbm, ⟨23, _⟩ => ⟨S_, .i32⟩
  | .hbm, ⟨24, _⟩ => ⟨S500000, .i32⟩
  | .hbm, ⟨25, _⟩ => ⟨S500000, .i1⟩
  | .hbm, ⟨26, _⟩ => ⟨S_, .i32⟩
  | .hbm, ⟨27, _⟩ => ⟨S500000, .i32⟩
  | .hbm, ⟨28, _⟩ => ⟨S500000, .i32⟩
  | .hbm, ⟨29, _⟩ => ⟨S500000, .i32⟩
  | .hbm, ⟨30, _⟩ => ⟨S500000x1, .i32⟩
  | .hbm, ⟨31, _⟩ => ⟨S500000x3, .f32⟩
  | .hbm, ⟨32, _⟩ => ⟨S500000x3, .f32⟩
  | .hbm, ⟨33, _⟩ => ⟨S_, .i32⟩
  | .hbm, ⟨34, _⟩ => ⟨S500000, .i32⟩
  | .hbm, ⟨35, _⟩ => ⟨S500000, .i1⟩
  | .hbm, ⟨36, _⟩ => ⟨S_, .i32⟩
  | .hbm, ⟨37, _⟩ => ⟨S500000, .i32⟩
  | .hbm, ⟨38, _⟩ => ⟨S500000, .i32⟩
  | .hbm, ⟨39, _⟩ => ⟨S500000, .i32⟩
  | .hbm, ⟨40, _⟩ => ⟨S500000x1, .i32⟩
  | .hbm, ⟨41, _⟩ => ⟨S500000x256, .bf16⟩
  | .hbm, ⟨42, _⟩ => ⟨S256x256, .f32⟩
  | .hbm, ⟨43, _⟩ => ⟨S3x256, .f32⟩
  | .hbm, ⟨44, _⟩ => ⟨S256x1, .f32⟩
  | .hbm, ⟨45, _⟩ => ⟨S1, .f32⟩
  | .hbm, ⟨46, _⟩ => ⟨S500000x1, .f32⟩
  | .hbm, ⟨47, _⟩ => ⟨S500000, .f32⟩
  | .local _ .vmem, ⟨0, _⟩ => ⟨S4000x3, .f32⟩
  | .local _ .vmem, ⟨1, _⟩ => ⟨S4000x3, .f32⟩
  | .local _ .vmem, ⟨2, _⟩ => ⟨S4000x256, .bf16⟩
  | .local _ .vmem, ⟨3, _⟩ => ⟨S4000x256, .bf16⟩
  | .local _ .vmem, ⟨4, _⟩ => ⟨S256x256, .f32⟩
  | .local _ .vmem, ⟨5, _⟩ => ⟨S3x256, .f32⟩
  | .local _ .vmem, ⟨6, _⟩ => ⟨S256, .f32⟩
  | .local _ .vmem, ⟨7, _⟩ => ⟨S256x256, .f32⟩
  | .local _ .vmem, ⟨8, _⟩ => ⟨S256, .f32⟩
  | .local _ .vmem, ⟨9, _⟩ => ⟨S256x256, .f32⟩
  | .local _ .vmem, ⟨10, _⟩ => ⟨S256, .f32⟩
  | .local _ .vmem, ⟨11, _⟩ => ⟨S256x1, .f32⟩
  | .local _ .vmem, ⟨12, _⟩ => ⟨S1, .f32⟩
  | .local _ .vmem, ⟨13, _⟩ => ⟨S4000x1, .f32⟩
  | .local _ .vmem, ⟨14, _⟩ => ⟨S4000x1, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_c : Ref sig .tc := ⟨.hbm, 14, rfl⟩
abbrev main_v1 : Ref sig .tc := ⟨.hbm, 15, rfl⟩
abbrev main_v2 : Ref sig .tc := ⟨.hbm, 16, rfl⟩
abbrev main_c_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_c_1 : Ref sig .tc := ⟨.hbm, 23, rfl⟩
abbrev main_v8 : Ref sig .tc := ⟨.hbm, 24, rfl⟩
abbrev main_v9 : Ref sig .tc := ⟨.hbm, 25, rfl⟩
abbrev main_c_2 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_c_3 : Ref sig .tc := ⟨.hbm, 33, rfl⟩
abbrev main_v16 : Ref sig .tc := ⟨.hbm, 34, rfl⟩
abbrev main_v17 : Ref sig .tc := ⟨.hbm, 35, rfl⟩
abbrev main_c_4 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S4000x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  bitsLt_bf16_f32 : FTy.bits .bf16 < FTy.bits .f32
  bcast_S_S500000 : S_.BroadcastsInDim S500000 (![] : Fin 0 → Fin S500000.rank)
  bcast_S500000_S500000x1_0 : S500000.BroadcastsInDim S500000x1 (![0] : Fin 1 → Fin S500000x1.rank)
  slices_S259x256_S256x256_0_0 : S259x256.Slices ![0, 0] S256x256
  slices_S259x256_S3x256_256_0 : S259x256.Slices ![256, 0] S3x256
  slices_S256x2_S256x1_0_0 : S256x2.Slices ![0, 0] S256x1
  slices_S2_S1_0 : S2.Slices ![0] S1
  inb_S4000x256_S4000x256_0_0 : ∀ a, (![0, 0] : Fin 2 → Nat) a + S4000x256.size a ≤ S4000x256.size a
  h_S4000x256 : 0 < S4000x256.numel
  shapeCasts_S4000x256_S4000x256 : S4000x256.ShapeCasts S4000x256
  inb_S4000x3_S4000x3_0_0 : ∀ a, (![0, 0] : Fin 2 → Nat) a + S4000x3.size a ≤ S4000x3.size a
  h_S4000x3 : 0 < S4000x3.numel
  shapeCasts_S4000x3_S4000x3 : S4000x3.ShapeCasts S4000x3
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S3x256_S3x256_0_0 : ∀ a, (![0, 0] : Fin 2 → Nat) a + S3x256.size a ≤ S3x256.size a
  h_S3x256 : 0 < S3x256.numel
  shapeCasts_S3x256_S3x256 : S3x256.ShapeCasts S3x256
  inb_S256_S256_0 : ∀ a, (![0] : Fin 1 → Nat) a + S256.size a ≤ S256.size a
  h_S256 : 0 < S256.numel
  shapeCasts_S256_S1x256 : S256.ShapeCasts S1x256
  broadcasts_S1x256_S4000x256 : S1x256.Broadcasts S4000x256
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1_S1_0 : ∀ a, (![0] : Fin 1 → Nat) a + S1.size a ≤ S1.size a
  h_S1 : 0 < S1.numel
  shapeCasts_S1_S1 : S1.ShapeCasts S1
  shapeCasts_S1_S1x1 : S1.ShapeCasts S1x1
  broadcasts_S1x1_S4000x1 : S1x1.Broadcasts S4000x1
  inb_S4000x1_S4000x1_0_0 : ∀ a, (![0, 0] : Fin 2 → Nat) a + S4000x1.size a ≤ S4000x1.size a
  h_S4000x1 : 0 < S4000x1.numel
  shapeCasts_S500000x1_S500000 : S500000x1.ShapeCasts S500000
  gather_S200000x3_S500000x1_S500000x3_1_0_n_n_0_1_13_wf : GatherDims.WF S200000x3 S500000x1 S500000x3 [1] [0] [] [0] [] 1 ![1, 3]
  gather_S100000x3_S500000x1_S500000x3_1_0_n_n_0_1_13_wf : GatherDims.WF S100000x3 S500000x1 S500000x3 [1] [0] [] [0] [] 1 ![1, 3]
  gather_S100000x256_S500000x1_S500000x256_1_0_n_n_0_1_1256_wf : GatherDims.WF S100000x256 S500000x1 S500000x256 [1] [0] [] [0] [] 1 ![1, 256]
  dot_S4000x256_S256x256_S4000x256_1_0_0_1_n_n_wf : DotDims.WF S4000x256 S256x256 S4000x256 [1] [0] [0] [1] [] []
  dot_S4000x3_S3x256_S4000x256_1_0_0_1_n_n_wf : DotDims.WF S4000x3 S3x256 S4000x256 [1] [0] [0] [1] [] []
  dot_S4000x256_S256x1_S4000x1_1_0_0_1_n_n_wf : DotDims.WF S4000x256 S256x1 S4000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x3.size a ≤ S500000x3.size a
  hwx0_0 : ∀ i : grid0.Coords, EltTy.bits .f32 = 32 ∨ (Rect.block (s := S500000x3) S4000x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x256.size a ≤ S500000x256.size a
  hwx0_1 : ∀ i : grid0.Coords, EltTy.bits .bf16 = 32 ∨ (Rect.block (s := S500000x256) S4000x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x256.size a ≤ S3x256.size a
  hwx0_3 : ∀ i : grid0.Coords, EltTy.bits .f32 = 32 ∨ (Rect.block (s := S3x256) S3x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x256.size a ≤ S256x256.size a
  hwx0_7 : ∀ i : grid0.Coords, EltTy.bits .f32 = 32 ∨ (Rect.block (s := S256x256) S256x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256.size a ≤ S256.size a
  hwx0_8 : ∀ i : grid0.Coords, EltTy.bits .f32 = 32 ∨ (Rect.block (s := S256) S256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x1.size a ≤ S256x1.size a
  hwx0_9 : ∀ i : grid0.Coords, EltTy.bits .f32 = 32 ∨ (Rect.block (s := S256x1) S256x1.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1.size a ≤ S1.size a
  hwx0_10 : ∀ i : grid0.Coords, EltTy.bits .f32 = 32 ∨ (Rect.block (s := S1) S1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S4000x1.size a ≤ S500000x1.size a
  hwx0_11 : ∀ i : grid0.Coords, EltTy.bits .f32 = 32 ∨ (Rect.block (s := S500000x1) S4000x1.size (cc0_transform_11 i) (hinb0_11 i)).WholeWords (EltTy.packing .f32)

variable [Facts₀]

def gather_S200000x3_S500000x1_S500000x3_1_0_n_n_0_1_13 : GatherDims S200000x3 S500000x1 S500000x3 where
  offsetDims := [1]
  collapsedSliceDims := [0]
  operandBatchingDims := []
  startIndicesBatchingDims := []
  startIndexMap := [0]
  indexVectorDim := 1
  sliceSizes := ![1, 3]
  wf := gather_S200000x3_S500000x1_S500000x3_1_0_n_n_0_1_13_wf
def gather_S100000x3_S500000x1_S500000x3_1_0_n_n_0_1_13 : GatherDims S100000x3 S500000x1 S500000x3 where
  offsetDims := [1]
  collapsedSliceDims := [0]
  operandBatchingDims := []
  startIndicesBatchingDims := []
  startIndexMap := [0]
  indexVectorDim := 1
  sliceSizes := ![1, 3]
  wf := gather_S100000x3_S500000x1_S500000x3_1_0_n_n_0_1_13_wf
def gather_S100000x256_S500000x1_S500000x256_1_0_n_n_0_1_1256 : GatherDims S100000x256 S500000x1 S500000x256 where
  offsetDims := [1]
  collapsedSliceDims := [0]
  operandBatchingDims := []
  startIndicesBatchingDims := []
  startIndexMap := [0]
  indexVectorDim := 1
  sliceSizes := ![1, 256]
  wf := gather_S100000x256_S500000x1_S500000x256_1_0_n_n_0_1_1256_wf
def dot_S4000x256_S256x256_S4000x256_1_0_0_1_n_n : DotDims S4000x256 S256x256 S4000x256 where
  lhsContracting := [1]
  rhsContracting := [0]
  lhsNonContracting := [0]
  rhsNonContracting := [1]
  lhsBatch := []
  rhsBatch := []
  wf := dot_S4000x256_S256x256_S4000x256_1_0_0_1_n_n_wf
def dot_S4000x3_S3x256_S4000x256_1_0_0_1_n_n : DotDims S4000x3 S3x256 S4000x256 where
  lhsContracting := [1]
  rhsContracting := [0]
  lhsNonContracting := [0]
  rhsNonContracting := [1]
  lhsBatch := []
  rhsBatch := []
  wf := dot_S4000x3_S3x256_S4000x256_1_0_0_1_n_n_wf
def dot_S4000x256_S256x1_S4000x1_1_0_0_1_n_n : DotDims S4000x256 S256x1 S4000x1 where
  lhsContracting := [1]
  rhsContracting := [0]
  lhsNonContracting := [0]
  rhsNonContracting := [1]
  lhsBatch := []
  rhsBatch := []
  wf := dot_S4000x256_S256x1_S4000x1_1_0_0_1_n_n_wf

abbrev win0_0 : Pipeline.Window sig grid0 :=
  Pipeline.Window.ofSpec (Memref.whole main_v15) S4000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S4000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S3x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg9) S256x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg10) S256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v25) S256x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v26) S1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v27) S4000x1.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S100000x3 : Shape := ⟨2, ![100000, 3]⟩
abbrev S200000x3 : Shape := ⟨2, ![200000, 3]⟩
abbrev S100000x256 : Shape := ⟨2, ![100000, 256]⟩
abbrev S500000 : Shape := ⟨1, ![500000]⟩
abbrev S259x256 : Shape := ⟨2, ![259, 256]⟩
abbrev S256 : Shape := ⟨1, ![256]⟩
abbrev S256x256 : Shape := ⟨2, ![256, 256]⟩
abbrev S256x2 : Shape := ⟨2, ![256, 2]⟩
abbrev S2 : Shape := ⟨1, ![2]⟩
abbrev S_ : Shape := ⟨0, ![]⟩
abbrev S500000x1 : Shape := ⟨2, ![500000, 1]⟩
abbrev S500000x3 : Shape := ⟨2, ![500000, 3]⟩
abbrev S500000x256 : Shape := ⟨2, ![500000, 256]⟩
abbrev S500000x259 : Shape := ⟨2, ![500000, 259]⟩
abbrev S1x256 : Shape := ⟨2, ![1, 256]⟩
abbrev S500000x2 : Shape := ⟨2, ![500000, 2]⟩
abbrev S1x2 : Shape := ⟨2, ![1, 2]⟩

abbrev nBuf : Space → Nat
  | .hbm => 66
  | .vmem => 0
  | .smem => 0
  | _ => 0

abbrev bufTy : (tb : Table) → Fin (tcTables nBuf tb) → BufTy
  | .hbm, ⟨0, _⟩ => ⟨S100000x3, .f32⟩
  | .hbm, ⟨1, _⟩ => ⟨S200000x3, .f32⟩
  | .hbm, ⟨2, _⟩ => ⟨S100000x256, .f32⟩
  | .hbm, ⟨3, _⟩ => ⟨S500000, .i32⟩
  | .hbm, ⟨4, _⟩ => ⟨S500000, .i32⟩
  | .hbm, ⟨5, _⟩ => ⟨S259x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256x2, .f32⟩
  | .hbm, ⟨12, _⟩ => ⟨S2, .f32⟩
  | .hbm, ⟨13, _⟩ => ⟨S_, .i32⟩
  | .hbm, ⟨14, _⟩ => ⟨S500000, .i32⟩
  | .hbm, ⟨15, _⟩ => ⟨S500000, .i1⟩
  | .hbm, ⟨16, _⟩ => ⟨S_, .i32⟩
  | .hbm, ⟨17, _⟩ => ⟨S500000, .i32⟩
  | .hbm, ⟨18, _⟩ => ⟨S500000, .i32⟩
  | .hbm, ⟨19, _⟩ => ⟨S500000, .i32⟩
  | .hbm, ⟨20, _⟩ => ⟨S500000x1, .i32⟩
  | .hbm, ⟨21, _⟩ => ⟨S500000x3, .f32⟩
  | .hbm, ⟨22, _⟩ => ⟨S_, .i32⟩
  | .hbm, ⟨23, _⟩ => ⟨S500000, .i32⟩
  | .hbm, ⟨24, _⟩ => ⟨S500000, .i1⟩
  | .hbm, ⟨25, _⟩ => ⟨S_, .i32⟩
  | .hbm, ⟨26, _⟩ => ⟨S500000, .i32⟩
  | .hbm, ⟨27, _⟩ => ⟨S500000, .i32⟩
  | .hbm, ⟨28, _⟩ => ⟨S500000, .i32⟩
  | .hbm, ⟨29, _⟩ => ⟨S500000x1, .i32⟩
  | .hbm, ⟨30, _⟩ => ⟨S500000x3, .f32⟩
  | .hbm, ⟨31, _⟩ => ⟨S500000x3, .f32⟩
  | .hbm, ⟨32, _⟩ => ⟨S_, .i32⟩
  | .hbm, ⟨33, _⟩ => ⟨S500000, .i32⟩
  | .hbm, ⟨34, _⟩ => ⟨S500000, .i1⟩
  | .hbm, ⟨35, _⟩ => ⟨S_, .i32⟩
  | .hbm, ⟨36, _⟩ => ⟨S500000, .i32⟩
  | .hbm, ⟨37, _⟩ => ⟨S500000, .i32⟩
  | .hbm, ⟨38, _⟩ => ⟨S500000, .i32⟩
  | .hbm, ⟨39, _⟩ => ⟨S500000x1, .i32⟩
  | .hbm, ⟨40, _⟩ => ⟨S500000x256, .f32⟩
  | .hbm, ⟨41, _⟩ => ⟨S500000x259, .f32⟩
  | .hbm, ⟨42, _⟩ => ⟨S500000x256, .f32⟩
  | .hbm, ⟨43, _⟩ => ⟨S1x256, .f32⟩
  | .hbm, ⟨44, _⟩ => ⟨S500000x256, .f32⟩
  | .hbm, ⟨45, _⟩ => ⟨S500000x256, .f32⟩
  | .hbm, ⟨46, _⟩ => ⟨S_, .f32⟩
  | .hbm, ⟨47, _⟩ => ⟨S500000x256, .f32⟩
  | .hbm, ⟨48, _⟩ => ⟨S500000x256, .f32⟩
  | .hbm, ⟨49, _⟩ => ⟨S500000x256, .f32⟩
  | .hbm, ⟨50, _⟩ => ⟨S1x256, .f32⟩
  | .hbm, ⟨51, _⟩ => ⟨S500000x256, .f32⟩
  | .hbm, ⟨52, _⟩ => ⟨S500000x256, .f32⟩
  | .hbm, ⟨53, _⟩ => ⟨S_, .f32⟩
  | .hbm, ⟨54, _⟩ => ⟨S500000x256, .f32⟩
  | .hbm, ⟨55, _⟩ => ⟨S500000x256, .f32⟩
  | .hbm, ⟨56, _⟩ => ⟨S500000x256, .f32⟩
  | .hbm, ⟨57, _⟩ => ⟨S1x256, .f32⟩
  | .hbm, ⟨58, _⟩ => ⟨S500000x256, .f32⟩
  | .hbm, ⟨59, _⟩ => ⟨S500000x256, .f32⟩
  | .hbm, ⟨60, _⟩ => ⟨S500000x2, .f32⟩
  | .hbm, ⟨61, _⟩ => ⟨S1x2, .f32⟩
  | .hbm, ⟨62, _⟩ => ⟨S500000x2, .f32⟩
  | .hbm, ⟨63, _⟩ => ⟨S500000x2, .f32⟩
  | .hbm, ⟨64, _⟩ => ⟨S500000x1, .f32⟩
  | .hbm, ⟨65, _⟩ => ⟨S500000, .f32⟩
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_c_1 : Ref sig .tc := ⟨.hbm, 22, rfl⟩
abbrev main_v7 : Ref sig .tc := ⟨.hbm, 23, rfl⟩
abbrev main_v8 : Ref sig .tc := ⟨.hbm, 24, rfl⟩
abbrev main_c_2 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_c_3 : Ref sig .tc := ⟨.hbm, 32, rfl⟩
abbrev main_v15 : Ref sig .tc := ⟨.hbm, 33, rfl⟩
abbrev main_v16 : Ref sig .tc := ⟨.hbm, 34, rfl⟩
abbrev main_c_4 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_call0_cst : Ref sig .tc := ⟨.hbm, 46, rfl⟩
abbrev main_call0_v0 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_call1_cst : Ref sig .tc := ⟨.hbm, 53, rfl⟩
abbrev main_call1_v0 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩

abbrev nD : Nat := 1
abbrev τ : Topo := Topo.v7x

variable {F : FTy → Type} [FloatOps F]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  concatenates_S500000x256_S500000x3_S500000x259_d1 : Shape.Concatenates [S500000x256, S500000x3] S500000x259 1
  bcast_S256_S1x256_1 : S256.BroadcastsInDim S1x256 (![1] : Fin 1 → Fin S1x256.rank)
  bcast_S1x256_S500000x256_0_1 : S1x256.BroadcastsInDim S500000x256 (![0, 1] : Fin 2 → Fin S500000x256.rank)
  bcast_S_S500000x256 : S_.BroadcastsInDim S500000x256 (![] : Fin 0 → Fin S500000x256.rank)
  bcast_S2_S1x2_1 : S2.BroadcastsInDim S1x2 (![1] : Fin 1 → Fin S1x2.rank)
  bcast_S1x2_S500000x2_0_1 : S1x2.BroadcastsInDim S500000x2 (![0, 1] : Fin 2 → Fin S500000x2.rank)
  slices_S500000x2_S500000x1_0_0 : S500000x2.Slices ![0, 0] S500000x1
  shapeCasts_S500000x1_S500000 : S500000x1.ShapeCasts S500000
  gather_S200000x3_S500000x1_S500000x3_1_0_n_n_0_1_13_wf : GatherDims.WF S200000x3 S500000x1 S500000x3 [1] [0] [] [0] [] 1 ![1, 3]
  gather_S100000x3_S500000x1_S500000x3_1_0_n_n_0_1_13_wf : GatherDims.WF S100000x3 S500000x1 S500000x3 [1] [0] [] [0] [] 1 ![1, 3]
  gather_S100000x256_S500000x1_S500000x256_1_0_n_n_0_1_1256_wf : GatherDims.WF S100000x256 S500000x1 S500000x256 [1] [0] [] [0] [] 1 ![1, 256]
  dot_S500000x259_S259x256_S500000x256_1_0_0_1_n_n_wf : DotDims.WF S500000x259 S259x256 S500000x256 [1] [0] [0] [1] [] []
  dot_S500000x256_S256x256_S500000x256_1_0_0_1_n_n_wf : DotDims.WF S500000x256 S256x256 S500000x256 [1] [0] [0] [1] [] []
  dot_S500000x256_S256x2_S500000x2_1_0_0_1_n_n_wf : DotDims.WF S500000x256 S256x2 S500000x2 [1] [0] [0] [1] [] []

variable [Facts₀]

def gather_S200000x3_S500000x1_S500000x3_1_0_n_n_0_1_13 : GatherDims S200000x3 S500000x1 S500000x3 where
  offsetDims := [1]
  collapsedSliceDims := [0]
  operandBatchingDims := []
  startIndicesBatchingDims := []
  startIndexMap := [0]
  indexVectorDim := 1
  sliceSizes := ![1, 3]
  wf := gather_S200000x3_S500000x1_S500000x3_1_0_n_n_0_1_13_wf
def gather_S100000x3_S500000x1_S500000x3_1_0_n_n_0_1_13 : GatherDims S100000x3 S500000x1 S500000x3 where
  offsetDims := [1]
  collapsedSliceDims := [0]
  operandBatchingDims := []
  startIndicesBatchingDims := []
  startIndexMap := [0]
  indexVectorDim := 1
  sliceSizes := ![1, 3]
  wf := gather_S100000x3_S500000x1_S500000x3_1_0_n_n_0_1_13_wf
def gather_S100000x256_S500000x1_S500000x256_1_0_n_n_0_1_1256 : GatherDims S100000x256 S500000x1 S500000x256 where
  offsetDims := [1]
  collapsedSliceDims := [0]
  operandBatchingDims := []
  startIndicesBatchingDims := []
  startIndexMap := [0]
  indexVectorDim := 1
  sliceSizes := ![1, 256]
  wf := gather_S100000x256_S500000x1_S500000x256_1_0_n_n_0_1_1256_wf
def dot_S500000x259_S259x256_S500000x256_1_0_0_1_n_n : DotDims S500000x259 S259x256 S500000x256 where
  lhsContracting := [1]
  rhsContracting := [0]
  lhsNonContracting := [0]
  rhsNonContracting := [1]
  lhsBatch := []
  rhsBatch := []
  wf := dot_S500000x259_S259x256_S500000x256_1_0_0_1_n_n_wf
def dot_S500000x256_S256x256_S500000x256_1_0_0_1_n_n : DotDims S500000x256 S256x256 S500000x256 where
  lhsContracting := [1]
  rhsContracting := [0]
  lhsNonContracting := [0]
  rhsNonContracting := [1]
  lhsBatch := []
  rhsBatch := []
  wf := dot_S500000x256_S256x256_S500000x256_1_0_0_1_n_n_wf
def dot_S500000x256_S256x2_S500000x2_1_0_0_1_n_n : DotDims S500000x256 S256x2 S500000x2 where
  lhsContracting := [1]
  rhsContracting := [0]
  lhsNonContracting := [0]
  rhsNonContracting := [1]
  lhsBatch := []
  rhsBatch := []
  wf := dot_S500000x256_S256x2_S500000x2_1_0_0_1_n_n_wf

class Facts : Prop extends Facts₀ where

variable [Facts]
-- ==== Proof.LibMatmulPlain.lean ====
/-
  A plain matrix product read at an entry. For dimension numbers that contract the second axis of an [M, K] array with
  the first axis of a [K, N] array, with no batch axes, the product into a zero accumulator is, at entry (r, q), the sum
  over k of left(r, k) * right(k, q) on the extended reals.
-/
import Idealize.ShloMosaic.PureOps.Ideal
import Idealize.ShloMosaic.PureOps.Ideal.Laws
import Idealize.ShloMosaic.Lib.ValueIdx

noncomputable section

open scoped BigOperators

namespace Cert.LibMatmulPlain

open Idealize.ShloMosaic Idealize.ShloMosaic.ValueIdx

variable {M K N : Nat} (d : DotDims ⟨2, ![M, K]⟩ ⟨2, ![K, N]⟩ ⟨2, ![M, N]⟩)
  (hlc : d.lhsContracting = [1]) (hrc : d.rhsContracting = [0]) (hln : d.lhsNonContracting = [0])
  (hrn : d.rhsNonContracting = [1]) (hlb : d.lhsBatch = []) (hrb : d.rhsBatch = [])

include hlc in
theorem rank_contr_one : d.contr.rank = 1 := by rw [d.rank_contr, hlc]; rfl

include hlc in
theorem size_contr_zero : d.contr.size ⟨0, by rw [rank_contr_one d hlc]; exact Nat.one_pos⟩ = K := by
  have := d.size_contr 0 (by rw [hlc]; exact Nat.one_pos)
  rw [this]
  simp [hlc]

include hln hlb in
/-- The left operand is read in the row of the result entry … -/
theorem lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
/-- … and the right operand in its column. -/
theorem rhs_col (j : (⟨2, ![M, N]⟩ : Shape).Idx) (k : d.contr.Idx) : ((d.rhsIdx j k 1 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The product into the zero accumulator at entry (r, q): the sum over the contracted axis. -/
theorem matmul_zero_apply {φ₁ φ₂ : FTy} (prec : Option ContractPrecision) (lhs : FVec Ideal ⟨2, ![M, K]⟩ φ₁)
    (rhs : FVec Ideal ⟨2, ![K, N]⟩ φ₂) (r : Fin M) (q : Fin N) :
    FloatOps.matmul d prec lhs rhs (constant ⟨2, ![M, N]⟩ .f32 0x00000000#32) (ix2 r q)
      = ∑ k : Fin K, lhs (ix2 r k) * rhs (ix2 k q) := by
  rw [Ideal.matmul_constant_zero_apply,
    ← Equiv.sum_comp (contrEquiv1 d K (rank_contr_one d hlc) (size_contr_zero d hlc)).symm]
  refine Finset.sum_congr rfl fun k _ => ?_
  have hk := contrEquiv1_symm_val d K (rank_contr_one d hlc) (size_contr_zero d hlc) k
  congr 1
  · refine congrArg lhs (funext fun a => Fin.ext ?_)
    match a with
    | ⟨0, _⟩ => exact lhs_row d hln hlb _ _
    | ⟨1, _⟩ => exact (d.lhsIdx_val_of_single hlc _ _).trans hk
  · refine congrArg rhs (funext fun a => Fin.ext ?_)
    match a with
    | ⟨0, _⟩ => exact (d.rhsIdx_val_of_single hrc _ _).trans hk
    | ⟨1, _⟩ => exact rhs_col d hln hrn hlb hrb _ _

end Cert.LibMatmulPlain

end
-- ==== Proof.LibDotsNT.lean ====
/-
  Matrix products read at an entry, on the extended reals.

  * Right operand contracted on its LAST axis: for dimension numbers that contract the second axis of an [M, K] array
    with the second axis of an [N, K] array, with no batch axes, the product at entry (r, q) is the sum over k of
    left(r, k) * right(q, k) -- for the matrix unit's product into a zero accumulator (`nt_matmul_zero_apply`) and
    for the host's dot_general (`nt_dotGeneral_apply`).
  * The host's dot_general with the plain dimension numbers, [M, K] by [K, N]: at entry (r, q) the sum over k of
    left(r, k) * right(k, q) (`plain_dotGeneral_apply`).
-/
import Idealize.ShloMosaic.PureOps.Ideal
import Idealize.ShloMosaic.PureOps.Ideal.Laws
import Idealize.ShloMosaic.Lib.ValueIdx

noncomputable section

open scoped BigOperators

namespace Cert.LibDotsNT

open Idealize.ShloMosaic Idealize.ShloMosaic.ValueIdx

section NT

variable {M K N : Nat} (d : DotDims ⟨2, ![M, K]⟩ ⟨2, ![N, K]⟩ ⟨2, ![M, N]⟩)
  (hlc : d.lhsContracting = [1]) (hrc : d.rhsContracting = [1]) (hln : d.lhsNonContracting = [0])
  (hrn : d.rhsNonContracting = [0]) (hlb : d.lhsBatch = []) (hrb : d.rhsBatch = [])

include hlc in
theorem nt_rank_contr_one : d.contr.rank = 1 := by rw [d.rank_contr, hlc]; rfl

include hlc in
theorem nt_size_contr_zero : d.contr.size ⟨0, by rw [nt_rank_contr_one d hlc]; exact Nat.one_pos⟩ = K := by
  have := d.size_contr 0 (by rw [hlc]; exact Nat.one_pos)
  rw [this]
  simp [hlc]

include hln hlb in
/-- The left operand is read in the row of the result entry ... -/
theorem nt_lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
/-- ... and the right operand in the row numbered by the result entry's column. -/
theorem nt_rhs_row (j : (⟨2, ![M, N]⟩ : Shape).Idx) (k : d.contr.Idx) : ((d.rhsIdx j k 0 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The contraction's sum re-indexed by the one contracted coordinate. -/
theorem nt_sum_apply {φ₁ φ₂ : FTy} (lhs : FVec Ideal ⟨2, ![M, K]⟩ φ₁) (rhs : FVec Ideal ⟨2, ![N, K]⟩ φ₂) (r : Fin M) (q : Fin N) :
    ∑ k : d.contr.Idx, lhs (d.lhsIdx (ix2 r q) k) * rhs (d.rhsIdx (ix2 r q) k)
      = ∑ k : Fin K, lhs (ix2 r k) * rhs (ix2 q k) := by
  rw [← Equiv.sum_comp (contrEquiv1 d K (nt_rank_contr_one d hlc) (nt_size_contr_zero d hlc)).symm]
  refine Finset.sum_congr rfl fun k _ => ?_
  have hk := contrEquiv1_symm_val d K (nt_rank_contr_one d hlc) (nt_size_contr_zero d hlc) k
  congr 1
  · refine congrArg lhs (funext fun a => Fin.ext ?_)
    match a with
    | ⟨0, _⟩ => exact nt_lhs_row d hln hlb _ _
    | ⟨1, _⟩ => exact (d.lhsIdx_val_of_single hlc _ _).trans hk
  · refine congrArg rhs (funext fun a => Fin.ext ?_)
    match a with
    | ⟨0, _⟩ => exact nt_rhs_row d hln hrn hlb hrb _ _
    | ⟨1, _⟩ => exact (d.rhsIdx_val_of_single hrc _ _).trans hk

include hlc hrc hln hrn hlb hrb in
/-- The matrix unit's product into the zero accumulator at entry (r, q). -/
theorem nt_matmul_zero_apply {φ₁ φ₂ : FTy} (prec : Option ContractPrecision) (lhs : FVec Ideal ⟨2, ![M, K]⟩ φ₁)
    (rhs : FVec Ideal ⟨2, ![N, K]⟩ φ₂) (r : Fin M) (q : Fin N) :
    FloatOps.matmul d prec lhs rhs (constant ⟨2, ![M, N]⟩ .f32 0x00000000#32) (ix2 r q)
      = ∑ k : Fin K, lhs (ix2 r k) * rhs (ix2 q k) := by
  rw [Ideal.matmul_constant_zero_apply]
  exact nt_sum_apply d hlc hrc hln hrn hlb hrb lhs rhs r q

include hlc hrc hln hrn hlb hrb in
/-- The host's dot_general at entry (r, q). -/
theorem nt_dotGeneral_apply {φ₁ φ₂ : FTy} (prec : Option ContractPrecision) (sched : HostSchedule)
    (lhs : FVec Ideal ⟨2, ![M, K]⟩ φ₁) (rhs : FVec Ideal ⟨2, ![N, K]⟩ φ₂) (r : Fin M) (q : Fin N) :
    FloatOps.dotGeneral d prec sched lhs rhs (ix2 r q) = ∑ k : Fin K, lhs (ix2 r k) * rhs (ix2 q k) := by
  rw [Ideal.dotGeneral_apply]
  exact nt_sum_apply d hlc hrc hln hrn hlb hrb lhs rhs r q

end NT

section Plain

variable {M K N : Nat} (d : DotDims ⟨2, ![M, K]⟩ ⟨2, ![K, N]⟩ ⟨2, ![M, N]⟩)
  (hlc : d.lhsContracting = [1]) (hrc : d.rhsContracting = [0]) (hln : d.lhsNonContracting = [0])
  (hrn : d.rhsNonContracting = [1]) (hlb : d.lhsBatch = []) (hrb : d.rhsBatch = [])

include hlc in
theorem plain_rank_contr_one : d.contr.rank = 1 := by rw [d.rank_contr, hlc]; rfl

include hlc in
theorem plain_size_contr_zero : d.contr.size ⟨0, by rw [plain_rank_contr_one d hlc]; exact Nat.one_pos⟩ = K := by
  have := d.size_contr 0 (by rw [hlc]; exact Nat.one_pos)
  rw [this]
  simp [hlc]

include hln hlb in
theorem plain_lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
theorem plain_rhs_col (j : (⟨2, ![M, N]⟩ : Shape).Idx) (k : d.contr.Idx) : ((d.rhsIdx j k 1 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The host's dot_general with the plain dimension numbers at entry (r, q). -/
theorem plain_dotGeneral_apply {φ₁ φ₂ : FTy} (prec : Option ContractPrecision) (sched : HostSchedule)
    (lhs : FVec Ideal ⟨2, ![M, K]⟩ φ₁) (rhs : FVec Ideal ⟨2, ![K, N]⟩ φ₂) (r : Fin M) (q : Fin N) :
    FloatOps.dotGeneral d prec sched lhs rhs (ix2 r q) = ∑ k : Fin K, lhs (ix2 r k) * rhs (ix2 k q) := by
  rw [Ideal.dotGeneral_apply,
    ← Equiv.sum_comp (contrEquiv1 d K (plain_rank_contr_one d hlc) (plain_size_contr_zero d hlc)).symm]
  refine Finset.sum_congr rfl fun k _ => ?_
  have hk := contrEquiv1_symm_val d K (plain_rank_contr_one d hlc) (plain_size_contr_zero d hlc) k
  congr 1
  · refine congrArg lhs (funext fun a => Fin.ext ?_)
    match a with
    | ⟨0, _⟩ => exact plain_lhs_row d hln hlb _ _
    | ⟨1, _⟩ => exact (d.lhsIdx_val_of_single hlc _ _).trans hk
  · refine congrArg rhs (funext fun a => Fin.ext ?_)
    match a with
    | ⟨0, _⟩ => exact (d.rhsIdx_val_of_single hrc _ _).trans hk
    | ⟨1, _⟩ => exact plain_rhs_col d hln hrn hlb hrb _ _

end Plain

end Cert.LibDotsNT

end
-- ==== Proof.LibKeepdims.lean ====
/-
  Reading a row sum kept as a column. A sum along the rows of an `[a, b]` array is an `[a]` vector; kept as a
  column it is cast to `[a, 1]` and then spread over `[a, c]`. Read at `(p, q)` each step looks at row `p` only:
  the cast ignores the unit coordinate, the spreading ignores the column, and the sum ranges over the `b` entries
  of row `p`. The three steps are stated one by one, over indices written by their coordinates, and then composed.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- An `[a]` vector cast to the column `[a, 1]` reads, at `(i, u)`, the vector at `i`, whatever the unit
    coordinate `u`: both positions are the `i`-th in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread over `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Putting the summed coordinate `k` back into the reduced index `p` gives the entry `(p, k)`. -/
theorem lift_cols {m n : ℕ} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- A float sum along the second axis from the zero pattern, read at row `p`, is the sum of that row's entries
    on the extended reals. -/
theorem rowSum_apply {m n : ℕ} (src : FVec Ideal ⟨2, ![m, n]⟩ .f32) (h : (⟨2, ![m, n]⟩ : Shape).Reduces [1] (⟨1, ![m]⟩ : Shape))
    (hφ : FKind.Formats .f32) (hacc : (0x00000000#32 : BitVec 32) = 0x00000000#32) (p : Fin m) :
    multiReduction .add [1] (⟨1, ![m]⟩ : Shape) src 0x00000000#32 h hφ hacc (ix1 p) = ∑ k : Fin n, src (ix2 p k) := by
  refine (Ideal.multiReduction_add_single src 0x00000000#32 h hφ hacc (ix1 p)).trans ?_
  exact Finset.sum_congr rfl fun k _ => congrArg src (lift_cols h p k)

/-- The three steps composed: the row sums of an `[a, b]` array, kept as a column and spread over `[a, c]`, read at
    `(p, q)` the sum of row `p`. -/
theorem rowSum_column_apply {a b c : ℕ} (src : FVec Ideal ⟨2, ![a, b]⟩ .f32)
    (h : (⟨2, ![a, b]⟩ : Shape).Reduces [1] (⟨1, ![a]⟩ : Shape)) (hφ : FKind.Formats .f32)
    (hacc : (0x00000000#32 : BitVec 32) = 0x00000000#32)
    (hcast : (⟨1, ![a]⟩ : Shape).ShapeCasts ⟨2, ![a, 1]⟩) (hbc : (⟨2, ![a, 1]⟩ : Shape).Broadcasts ⟨2, ![a, c]⟩)
    (p : Fin a) (q : Fin c) :
    broadcastTo ⟨2, ![a, c]⟩ (shapeCast ⟨2, ![a, 1]⟩ (multiReduction .add [1] (⟨1, ![a]⟩ : Shape) src 0x00000000#32 h hφ hacc) hcast) hbc (ix2 p q)
      = ∑ k : Fin b, src (ix2 p k) :=
  (broadcastTo_a1_ab_apply _ hbc p q).trans ((shapeCast_a_a1_apply _ hcast p 0).trans (rowSum_apply src h hφ hacc p))

/-- One row `[1, b]`, cast to its own shape and spread over `[a, b]`, reads at `(p, q)` the row's entry `q`. -/
theorem row_spread_apply {a b : ℕ} (v : (⟨2, ![1, b]⟩ : Shape).Idx → α) (hcast : (⟨2, ![1, b]⟩ : Shape).ShapeCasts ⟨2, ![1, b]⟩)
    (hbc : (⟨2, ![1, b]⟩ : Shape).Broadcasts ⟨2, ![a, b]⟩) (p : Fin a) (q : Fin b) :
    broadcastTo ⟨2, ![a, b]⟩ (shapeCast ⟨2, ![1, b]⟩ v hcast) hbc (ix2 p q) = v (ix2 (0 : Fin 1) q) :=
  (broadcastTo_1b_ab_apply _ hbc p q).trans (congrFun (shapeCast_self v hcast) _)

end Cert.LibKeepdims

end
-- ==== Proof.LibDenseLayer.lean ====
/-
  One dense layer of the network, read at an entry of its result, on the extended reals.

  For a feature array h : [a, k], a weight matrix W : [k, n], a column of row scales S : [a, 1] and a row of
  biases B : [1, n] the layer computes the product P = h W and the affine form P * S + B, the scale taken per row and
  the bias per column.  The tile of a grid point spells this with the matrix unit's product of the operands rounded
  to bfloat16 (a change of format, which does nothing to an extended real), a column spread over the columns and a
  row spread over the rows; the host spells it with a dot_general and two broadcast_in_dim.  Both spellings are the
  same function of the four arrays, index by index: `prod` and `affine` below.

  Also here: a vector laid out as a column [a] -> [a, 1], or as a row [n] -> [1, n], is the same array whether it is
  written as a reshape or as a broadcast_in_dim; and adding three arrays does not depend on the grouping.
-/
import Idealize.ShloMosaic.Lib.Pipeline.Value
import Idealize.ShloMosaic.Lib.ValueIdx
import Idealize.ShloMosaic.Lib.ValueLayout
import Idealize.ShloMosaic.PureOps.Ideal.Laws
import proofs.«147186_j59365037965877_2_alg».proof.Proof.LibMatmulPlain
import proofs.«147186_j59365037965877_2_alg».proof.Proof.LibDotsNT
import proofs.«147186_j59365037965877_2_alg».proof.Proof.LibKeepdims

noncomputable section

open scoped BigOperators

namespace Cert.Dense

open Idealize.ShloMosaic Idealize.ShloMosaic.ValueIdx

variable {a k n : ℕ}

/-- The product of an [a, k] array and a [k, n] array at entry (r, q): the sum over c of h(r, c) * W(c, q). -/
def prod (h : (⟨2, ![a, k]⟩ : Shape).Idx → EReal) (W : (⟨2, ![k, n]⟩ : Shape).Idx → EReal) :
    (⟨2, ![a, n]⟩ : Shape).Idx → EReal :=
  fun i => ∑ c : Fin k, h (ix2 (i 0) c) * W (ix2 c (i 1))

/-- The product with row r scaled by S(r, 0) and B(0, q) added in column q. -/
def affine (h : (⟨2, ![a, k]⟩ : Shape).Idx → EReal) (W : (⟨2, ![k, n]⟩ : Shape).Idx → EReal)
    (S : (⟨2, ![a, 1]⟩ : Shape).Idx → EReal) (B : (⟨2, ![1, n]⟩ : Shape).Idx → EReal) :
    (⟨2, ![a, n]⟩ : Shape).Idx → EReal :=
  fun i => prod h W i * S (ix2 (i 0) (0 : Fin 1)) + B (ix2 (0 : Fin 1) (i 1))

/-- The product with B(0, q) added in column q (no row scale). -/
def biased (h : (⟨2, ![a, k]⟩ : Shape).Idx → EReal) (W : (⟨2, ![k, n]⟩ : Shape).Idx → EReal)
    (B : (⟨2, ![1, n]⟩ : Shape).Idx → EReal) : (⟨2, ![a, n]⟩ : Shape).Idx → EReal :=
  fun i => prod h W i + B (ix2 (0 : Fin 1) (i 1))

theorem prod_ix2 (h : (⟨2, ![a, k]⟩ : Shape).Idx → EReal) (W : (⟨2, ![k, n]⟩ : Shape).Idx → EReal) (r : Fin a) (q : Fin n) :
    prod h W (ix2 r q) = ∑ c : Fin k, h (ix2 r c) * W (ix2 c q) := rfl

section Products

variable (d : DotDims ⟨2, ![a, k]⟩ ⟨2, ![k, n]⟩ ⟨2, ![a, n]⟩)
  (hlc : d.lhsContracting = [1]) (hrc : d.rhsContracting = [0]) (hln : d.lhsNonContracting = [0])
  (hrn : d.rhsNonContracting = [1]) (hlb : d.lhsBatch = []) (hrb : d.rhsBatch = [])

include hlc hrc hln hrn hlb hrb in
/-- The matrix unit's product of the two operands rounded to bfloat16, into a zero accumulator, is the product. -/
theorem matmul_eq_prod (x0 : FVec Ideal ⟨2, ![a, k]⟩ .f32) (x1 : FVec Ideal ⟨2, ![k, n]⟩ .f32)
    (hb : FTy.bf16.bits < FTy.f32.bits) :
    matmul d none (truncf .bf16 x0 hb) (truncf .bf16 x1 hb) (constant (F := Ideal) ⟨2, ![a, n]⟩ .f32 0x00000000#32)
      = prod x0 x1 := by
  funext j
  obtain ⟨r, q, rfl⟩ : ∃ (r : Fin a) (q : Fin n), j = ix2 r q := ⟨j 0, j 1, eq_ix2 j⟩
  exact Cert.LibMatmulPlain.matmul_zero_apply d hlc hrc hln hrn hlb hrb none _ _ r q

include hlc hrc hln hrn hlb hrb in
/-- The host's dot_general is the product. -/
theorem dotGeneral_eq_prod (h : FVec Ideal ⟨2, ![a, k]⟩ .f32) (W : FVec Ideal ⟨2, ![k, n]⟩ .f32) :
    Host.dotGeneral (F := Ideal) d none h W = prod h W := by
  funext j
  obtain ⟨r, q, rfl⟩ : ∃ (r : Fin a) (q : Fin n), j = ix2 r q := ⟨j 0, j 1, eq_ix2 j⟩
  exact Cert.LibDotsNT.plain_dotGeneral_apply d hlc hrc hln hrn hlb hrb none .single h W r q

end Products

/-- The tile's spelling of the scale and the bias: the column cast to its own shape and spread over the columns, the
    row cast to its own shape and spread over the rows. -/
theorem tile_affine (P : FVec Ideal ⟨2, ![a, n]⟩ .f32) (x2 : FVec Ideal ⟨2, ![a, 1]⟩ .f32) (x3 : FVec Ideal ⟨2, ![1, n]⟩ .f32)
    (hc2 : (⟨2, ![a, 1]⟩ : Shape).ShapeCasts ⟨2, ![a, 1]⟩) (hb2 : (⟨2, ![a, 1]⟩ : Shape).Broadcasts ⟨2, ![a, n]⟩)
    (hc3 : (⟨2, ![1, n]⟩ : Shape).ShapeCasts ⟨2, ![1, n]⟩) (hb3 : (⟨2, ![1, n]⟩ : Shape).Broadcasts ⟨2, ![a, n]⟩)
    (r : Fin a) (q : Fin n) :
    addf (mulf P (broadcastTo ⟨2, ![a, n]⟩ (shapeCast ⟨2, ![a, 1]⟩ x2 hc2) hb2))
        (broadcastTo ⟨2, ![a, n]⟩ (shapeCast ⟨2, ![1, n]⟩ x3 hc3) hb3) (ix2 r q)
      = P (ix2 r q) * x2 (ix2 r (0 : Fin 1)) + x3 (ix2 (0 : Fin 1) q) := by
  rw [addf_apply, mulf_apply, Cert.LibKeepdims.row_spread_apply, Cert.LibKeepdims.broadcastTo_a1_ab_apply, shapeCast_self]

/-- The tile's spelling of the bias alone. -/
theorem tile_biased (P : FVec Ideal ⟨2, ![a, n]⟩ .f32) (x3 : FVec Ideal ⟨2, ![1, n]⟩ .f32)
    (hc3 : (⟨2, ![1, n]⟩ : Shape).ShapeCasts ⟨2, ![1, n]⟩) (hb3 : (⟨2, ![1, n]⟩ : Shape).Broadcasts ⟨2, ![a, n]⟩)
    (r : Fin a) (q : Fin n) :
    addf P (broadcastTo ⟨2, ![a, n]⟩ (shapeCast ⟨2, ![1, n]⟩ x3 hc3) hb3) (ix2 r q)
      = P (ix2 r q) + x3 (ix2 (0 : Fin 1) q) := by
  rw [addf_apply, Cert.LibKeepdims.row_spread_apply]

/-- A column [a, 1] laid over [a, n] by broadcast_in_dim along both axes reads, at (r, q), the column's entry of row r. -/
theorem bcast_col_apply {α : Type} (S : (⟨2, ![a, 1]⟩ : Shape).Idx → α)
    (hS : (⟨2, ![a, 1]⟩ : Shape).BroadcastsInDim ⟨2, ![a, n]⟩ ![0, 1]) (r : Fin a) (q : Fin n) :
    broadcastInDim ⟨2, ![a, n]⟩ ![0, 1] hS S (ix2 r q) = S (ix2 r (0 : Fin 1)) := by
  refine broadcastInDim_apply ![0, 1] hS S (ix2 r q) (ix2 r (0 : Fin 1)) fun ax => ?_
  match ax with
  | ⟨0, _⟩ =>
    show r.val = if a = 1 then 0 else r.val
    split
    · have := r.isLt; omega
    · rfl
  | ⟨1, _⟩ => rfl

/-- A row [1, n] laid over [a, n] by broadcast_in_dim along both axes reads, at (r, q), the row's entry of column q. -/
theorem bcast_row_apply {α : Type} (B : (⟨2, ![1, n]⟩ : Shape).Idx → α)
    (hB : (⟨2, ![1, n]⟩ : Shape).BroadcastsInDim ⟨2, ![a, n]⟩ ![0, 1]) (r : Fin a) (q : Fin n) :
    broadcastInDim ⟨2, ![a, n]⟩ ![0, 1] hB B (ix2 r q) = B (ix2 (0 : Fin 1) q) := by
  refine broadcastInDim_apply ![0, 1] hB B (ix2 r q) (ix2 (0 : Fin 1) q) fun ax => ?_
  match ax with
  | ⟨0, _⟩ => rfl
  | ⟨1, _⟩ =>
    show q.val = if n = 1 then 0 else q.val
    split
    · have := q.isLt; omega
    · rfl

/-- The host's spelling of the affine form is `affine`. -/
theorem host_affine (P : FVec Ideal ⟨2, ![a, n]⟩ .f32) (S : FVec Ideal ⟨2, ![a, 1]⟩ .f32) (B : FVec Ideal ⟨2, ![1, n]⟩ .f32)
    (hS : (⟨2, ![a, 1]⟩ : Shape).BroadcastsInDim ⟨2, ![a, n]⟩ ![0, 1])
    (hB : (⟨2, ![1, n]⟩ : Shape).BroadcastsInDim ⟨2, ![a, n]⟩ ![0, 1]) (r : Fin a) (q : Fin n) :
    addf (mulf P (broadcastInDim ⟨2, ![a, n]⟩ ![0, 1] hS S)) (broadcastInDim ⟨2, ![a, n]⟩ ![0, 1] hB B) (ix2 r q)
      = P (ix2 r q) * S (ix2 r (0 : Fin 1)) + B (ix2 (0 : Fin 1) q) := by
  rw [addf_apply, mulf_apply, bcast_col_apply, bcast_row_apply]

/-- The host's spelling of the bias alone. -/
theorem host_biased (P : FVec Ideal ⟨2, ![a, n]⟩ .f32) (B : FVec Ideal ⟨2, ![1, n]⟩ .f32)
    (hB : (⟨2, ![1, n]⟩ : Shape).BroadcastsInDim ⟨2, ![a, n]⟩ ![0, 1]) (r : Fin a) (q : Fin n) :
    addf P (broadcastInDim ⟨2, ![a, n]⟩ ![0, 1] hB B) (ix2 r q) = P (ix2 r q) + B (ix2 (0 : Fin 1) q) := by
  rw [addf_apply, bcast_row_apply]

section HostForms

variable (d : DotDims ⟨2, ![a, k]⟩ ⟨2, ![k, n]⟩ ⟨2, ![a, n]⟩)
  (hlc : d.lhsContracting = [1]) (hrc : d.rhsContracting = [0]) (hln : d.lhsNonContracting = [0])
  (hrn : d.rhsNonContracting = [1]) (hlb : d.lhsBatch = []) (hrb : d.rhsBatch = [])

include hlc hrc hln hrn hlb hrb in
/-- The affine form as the host spells it: the dot_general times the scale column laid over the columns, plus the bias
    row laid over the rows. -/
theorem affine_eq_host (h : FVec Ideal ⟨2, ![a, k]⟩ .f32) (W : FVec Ideal ⟨2, ![k, n]⟩ .f32)
    (S : FVec Ideal ⟨2, ![a, 1]⟩ .f32) (B : FVec Ideal ⟨2, ![1, n]⟩ .f32)
    (hS : (⟨2, ![a, 1]⟩ : Shape).BroadcastsInDim ⟨2, ![a, n]⟩ ![0, 1])
    (hB : (⟨2, ![1, n]⟩ : Shape).BroadcastsInDim ⟨2, ![a, n]⟩ ![0, 1]) :
    affine h W S B
      = addf (mulf (Host.dotGeneral (F := Ideal) d none h W) (broadcastInDim ⟨2, ![a, n]⟩ ![0, 1] hS S))
          (broadcastInDim ⟨2, ![a, n]⟩ ![0, 1] hB B) := by
  funext j
  obtain ⟨r, q, rfl⟩ : ∃ (r : Fin a) (q : Fin n), j = ix2 r q := ⟨j 0, j 1, eq_ix2 j⟩
  rw [host_affine, dotGeneral_eq_prod d hlc hrc hln hrn hlb hrb]
  rfl

include hlc hrc hln hrn hlb hrb in
/-- The biased form as the host spells it. -/
theorem biased_eq_host (h : FVec Ideal ⟨2, ![a, k]⟩ .f32) (W : FVec Ideal ⟨2, ![k, n]⟩ .f32)
    (B : FVec Ideal ⟨2, ![1, n]⟩ .f32) (hB : (⟨2, ![1, n]⟩ : Shape).BroadcastsInDim ⟨2, ![a, n]⟩ ![0, 1]) :
    biased h W B
      = addf (Host.dotGeneral (F := Ideal) d none h W) (broadcastInDim ⟨2, ![a, n]⟩ ![0, 1] hB B) := by
  funext j
  obtain ⟨r, q, rfl⟩ : ∃ (r : Fin a) (q : Fin n), j = ix2 r q := ⟨j 0, j 1, eq_ix2 j⟩
  rw [host_biased, dotGeneral_eq_prod d hlc hrc hln hrn hlb hrb]
  rfl

end HostForms

/-- A vector laid out as a column: the reshape [a] -> [a, 1] and the broadcast_in_dim along axis 0 are one array. -/
theorem column_cast_eq_bcast {α : Type} (x : (⟨1, ![a]⟩ : Shape).Idx → α)
    (hc : (⟨1, ![a]⟩ : Shape).ShapeCasts ⟨2, ![a, 1]⟩) (hb : (⟨1, ![a]⟩ : Shape).BroadcastsInDim ⟨2, ![a, 1]⟩ ![0]) :
    shapeCast ⟨2, ![a, 1]⟩ x hc = broadcastInDim ⟨2, ![a, 1]⟩ ![0] hb x := by
  funext j
  obtain ⟨r, u, rfl⟩ : ∃ (r : Fin a) (u : Fin 1), j = ix2 r u := ⟨j 0, j 1, eq_ix2 j⟩
  rw [Cert.LibKeepdims.shapeCast_a_a1_apply]
  refine (broadcastInDim_apply ![0] hb x (ix2 r u) (ix1 r) fun ax => ?_).symm
  match ax with
  | ⟨0, _⟩ =>
    show r.val = if a = 1 then 0 else r.val
    split
    · have := r.isLt; omega
    · rfl

/-- A vector laid out as a row: the reshape [n] -> [1, n] and the broadcast_in_dim along axis 1 are one array. -/
theorem row_cast_eq_bcast {α : Type} (x : (⟨1, ![n]⟩ : Shape).Idx → α)
    (hc : (⟨1, ![n]⟩ : Shape).ShapeCasts ⟨2, ![1, n]⟩) (hb : (⟨1, ![n]⟩ : Shape).BroadcastsInDim ⟨2, ![1, n]⟩ ![1]) :
    shapeCast ⟨2, ![1, n]⟩ x hc = broadcastInDim ⟨2, ![1, n]⟩ ![1] hb x := by
  funext j
  obtain ⟨u, q, rfl⟩ : ∃ (u : Fin 1) (q : Fin n), j = ix2 u q := ⟨j 0, j 1, eq_ix2 j⟩
  rw [shapeCast_a_1a_apply]
  refine (broadcastInDim_apply ![1] hb x (ix2 u q) (ix1 q) fun ax => ?_).symm
  match ax with
  | ⟨0, _⟩ =>
    show q.val = if n = 1 then 0 else q.val
    split
    · have := q.isLt; omega
    · rfl

/-- Adding three arrays: the grouping does not matter (addition of extended reals is associative). -/
theorem addf_assoc {s : Shape} {φ : FTy} (x y z : FVec Ideal s φ) : addf x (addf y z) = addf (addf x y) z := by
  funext i
  rw [addf_apply, addf_apply, addf_apply, addf_apply, add_assoc]

end Cert.Dense

end
-- ==== Proof.LibDenseBranch.lean ====
/-
  One dense branch of the network, read at an entry, over literal-free extents.

  For an [a, k] array h, a [k, n] weight W and a [1, n] bias row B:
    act h W B (r, q)              = max (sum over c of h(r, c) * W(c, q) + B(0, q)) 0      (the rectified layer)
    gate h W1 B1 W2 B2 (r, q)     = act h W1 B1 (r, q) * act h W2 B2 (r, q)               (the product branch)
  and the raw product h W (Cert.Dense.prod) feeds the edge aggregation.

  Each is spelt twice in the programs: on a tile of rows by the matrix unit (operands rounded to bfloat16, which
  on the extended reals changes nothing; the bias row and the zero spread over the tile), and on the whole array
  by the host's dot_general with the bias laid over the rows and a scalar zero laid over everything.  Both
  spellings are the functions above; and an entry of the whole array's function is the same function of the
  block of rows that holds it, since an entry of a product only reads its own row of h.
-/
import Idealize.ShloMosaic.Lib.Pipeline.Value
import Idealize.ShloMosaic.Lib.ValueIdx
import Idealize.ShloMosaic.Lib.ValueLayout
import Idealize.ShloMosaic.PureOps.Ideal.Laws
import proofs.«147186_j59365037965877_2_alg».proof.Proof.LibDenseLayer

noncomputable section

open scoped BigOperators

namespace Cert.Branch

open Idealize.ShloMosaic Idealize.ShloMosaic.ValueIdx

variable {a k n N : ℕ}

/-- The rectified dense layer at an entry: the larger of (h W + B)(r, q) and zero. -/
def act (h : (⟨2, ![a, k]⟩ : Shape).Idx → EReal) (W : (⟨2, ![k, n]⟩ : Shape).Idx → EReal)
    (B : (⟨2, ![1, n]⟩ : Shape).Idx → EReal) : (⟨2, ![a, n]⟩ : Shape).Idx → EReal :=
  fun i => max (Cert.Dense.biased h W B i) (Ideal.ofBits .f32 0x00000000#32)

/-- The product branch at an entry: two rectified layers of the same h, multiplied. -/
def gate (h : (⟨2, ![a, k]⟩ : Shape).Idx → EReal) (W1 : (⟨2, ![k, n]⟩ : Shape).Idx → EReal)
    (B1 : (⟨2, ![1, n]⟩ : Shape).Idx → EReal) (W2 : (⟨2, ![k, n]⟩ : Shape).Idx → EReal)
    (B2 : (⟨2, ![1, n]⟩ : Shape).Idx → EReal) : (⟨2, ![a, n]⟩ : Shape).Idx → EReal :=
  fun i => act h W1 B1 i * act h W2 B2 i

/-! ## An entry only reads its own row -/

/-- If row (j 0) of the block xb is row (i 0) of the array X, the weights agree and the columns agree, the
    product's entry j over the block is the product's entry i over the array. -/
theorem prod_at (X : (⟨2, ![N, k]⟩ : Shape).Idx → EReal) (W : (⟨2, ![k, n]⟩ : Shape).Idx → EReal)
    (xb : (⟨2, ![a, k]⟩ : Shape).Idx → EReal) (wb : (⟨2, ![k, n]⟩ : Shape).Idx → EReal)
    (j : (⟨2, ![a, n]⟩ : Shape).Idx) (i : (⟨2, ![N, n]⟩ : Shape).Idx)
    (hx : ∀ c : Fin k, xb (ix2 (j 0) c) = X (ix2 (i 0) c)) (hw : ∀ y, wb y = W y) (hq : j 1 = i 1) :
    Cert.Dense.prod xb wb j = Cert.Dense.prod X W i := by
  show ∑ c : Fin k, xb (ix2 (j 0) c) * wb (ix2 c (j 1)) = ∑ c : Fin k, X (ix2 (i 0) c) * W (ix2 c (i 1))
  refine Finset.sum_congr rfl fun c _ => ?_
  rw [hx c, hw, hq]

/-- The same for the rectified layer. -/
theorem act_at (X : (⟨2, ![N, k]⟩ : Shape).Idx → EReal) (W : (⟨2, ![k, n]⟩ : Shape).Idx → EReal)
    (B : (⟨2, ![1, n]⟩ : Shape).Idx → EReal)
    (xb : (⟨2, ![a, k]⟩ : Shape).Idx → EReal) (wb : (⟨2, ![k, n]⟩ : Shape).Idx → EReal)
    (bb : (⟨2, ![1, n]⟩ : Shape).Idx → EReal)
    (j : (⟨2, ![a, n]⟩ : Shape).Idx) (i : (⟨2, ![N, n]⟩ : Shape).Idx)
    (hx : ∀ c : Fin k, xb (ix2 (j 0) c) = X (ix2 (i 0) c)) (hw : ∀ y, wb y = W y) (hb : ∀ y, bb y = B y)
    (hq : j 1 = i 1) :
    act xb wb bb j = act X W B i := by
  show max (Cert.Dense.prod xb wb j + bb (ix2 (0 : Fin 1) (j 1))) _
      = max (Cert.Dense.prod X W i + B (ix2 (0 : Fin 1) (i 1))) _
  rw [prod_at X W xb wb j i hx hw hq, hb, hq]

/-- The same for the product branch. -/
theorem gate_at (X : (⟨2, ![N, k]⟩ : Shape).Idx → EReal) (W1 : (⟨2, ![k, n]⟩ : Shape).Idx → EReal)
    (B1 : (⟨2, ![1, n]⟩ : Shape).Idx → EReal) (W2 : (⟨2, ![k, n]⟩ : Shape).Idx → EReal)
    (B2 : (⟨2, ![1, n]⟩ : Shape).Idx → EReal)
    (xb : (⟨2, ![a, k]⟩ : Shape).Idx → EReal) (w1 : (⟨2, ![k, n]⟩ : Shape).Idx → EReal)
    (b1 : (⟨2, ![1, n]⟩ : Shape).Idx → EReal) (w2 : (⟨2, ![k, n]⟩ : Shape).Idx → EReal)
    (b2 : (⟨2, ![1, n]⟩ : Shape).Idx → EReal)
    (j : (⟨2, ![a, n]⟩ : Shape).Idx) (i : (⟨2, ![N, n]⟩ : Shape).Idx)
    (hx : ∀ c : Fin k, xb (ix2 (j 0) c) = X (ix2 (i 0) c)) (hw1 : ∀ y, w1 y = W1 y) (hb1 : ∀ y, b1 y = B1 y)
    (hw2 : ∀ y, w2 y = W2 y) (hb2 : ∀ y, b2 y = B2 y) (hq : j 1 = i 1) :
    gate xb w1 b1 w2 b2 j = gate X W1 B1 W2 B2 i := by
  show act xb w1 b1 j * act xb w2 b2 j = act X W1 B1 i * act X W2 B2 i
  rw [act_at X W1 B1 xb w1 b1 j i hx hw1 hb1 hq, act_at X W2 B2 xb w2 b2 j i hx hw2 hb2 hq]

/-! ## The tile's spelling and the host's spelling -/

section Spellings

variable (d : DotDims ⟨2, ![a, k]⟩ ⟨2, ![k, n]⟩ ⟨2, ![a, n]⟩)
  (hlc : d.lhsContracting = [1]) (hrc : d.rhsContracting = [0]) (hln : d.lhsNonContracting = [0])
  (hrn : d.rhsNonContracting = [1]) (hlb : d.lhsBatch = []) (hrb : d.rhsBatch = [])

include hlc hrc hln hrn hlb hrb in
/-- On a tile: the matrix unit's product into zero, plus the bias row spread over the rows, against a zero
    spread over the tile, is the rectified layer. -/
theorem tile_act (x : FVec Ideal ⟨2, ![a, k]⟩ .f32) (W : FVec Ideal ⟨2, ![k, n]⟩ .f32)
    (b : FVec Ideal ⟨2, ![1, n]⟩ .f32) (hb : FTy.bf16.bits < FTy.f32.bits)
    (hc3 : (⟨2, ![1, n]⟩ : Shape).ShapeCasts ⟨2, ![1, n]⟩) (hb3 : (⟨2, ![1, n]⟩ : Shape).Broadcasts ⟨2, ![a, n]⟩) :
    maximumf (addf (matmul d none (truncf .bf16 x hb) (truncf .bf16 W hb)
          (constant (F := Ideal) ⟨2, ![a, n]⟩ .f32 0x00000000#32))
        (broadcastTo ⟨2, ![a, n]⟩ (shapeCast ⟨2, ![1, n]⟩ b hc3) hb3))
      (broadcast ⟨2, ![a, n]⟩ (Scalar.ofBits (F := Ideal) .f32 0x00000000#32))
      = act x W b := by
  funext i
  obtain ⟨r, q, rfl⟩ : ∃ (r : Fin a) (q : Fin n), i = ix2 r q := ⟨i 0, i 1, eq_ix2 i⟩
  refine congrArg (fun z : EReal => max z (Ideal.ofBits .f32 0x00000000#32)) ?_
  rw [Cert.Dense.matmul_eq_prod d hlc hrc hln hrn hlb hrb x W hb]
  exact Cert.Dense.tile_biased _ b hc3 hb3 r q

include hlc hrc hln hrn hlb hrb in
/-- On the whole array: the host's dot_general plus the bias row laid over the rows, against a scalar zero laid
    over everything, is the rectified layer. -/
theorem host_act (X : FVec Ideal ⟨2, ![a, k]⟩ .f32) (W : FVec Ideal ⟨2, ![k, n]⟩ .f32)
    (B : FVec Ideal ⟨2, ![1, n]⟩ .f32) (hB : (⟨2, ![1, n]⟩ : Shape).BroadcastsInDim ⟨2, ![a, n]⟩ ![0, 1])
    (h0 : (⟨0, ![]⟩ : Shape).BroadcastsInDim ⟨2, ![a, n]⟩ ![]) :
    maximumf (addf (Host.dotGeneral (F := Ideal) d none X W) (broadcastInDim ⟨2, ![a, n]⟩ ![0, 1] hB B))
      (broadcastInDim ⟨2, ![a, n]⟩ ![] h0 (constant (F := Ideal) ⟨0, ![]⟩ .f32 0x00000000#32))
      = act X W B := by
  funext i
  obtain ⟨r, q, rfl⟩ : ∃ (r : Fin a) (q : Fin n), i = ix2 r q := ⟨i 0, i 1, eq_ix2 i⟩
  refine congrArg (fun z : EReal => max z (Ideal.ofBits .f32 0x00000000#32)) ?_
  rw [Cert.Dense.dotGeneral_eq_prod d hlc hrc hln hrn hlb hrb X W]
  exact Cert.Dense.host_biased _ B hB r q

end Spellings

end Cert.Branch

end
-- ==== Proof.Net.lean ====
/-
  The network, as one function of its arrays, read at an entry, on the extended reals.

  A row of edge features is the pair (L(r, ·), P(r, ·)): 256 latent numbers and 3 relative coordinates.  With
  weights Wl : [256, 256], Wp : [3, 256] and a bias row B0 the first layer is
      first(r, q) = max ((sum over c of L(r, c) * Wl(c, q)) + (sum over c of P(r, c) * Wp(c, q)) + B0(0, q)) 0,
  the product with the 259-row input matrix taken in its two row ranges.  Two more layers follow,
      hidden = max (first W1 + B1) 0 W2 + B2,
  and the read-out is one column: net = hidden Wo + Bo with Wo : [256, 1] and Bo : [1, 1].

  Every entry (r, ·) of these arrays reads row r of L and of P only.  So the network of a block of rows is the
  block of the network: `first_rows`, `hidden_rows`, `net_rows`.
-/
import Idealize.ShloMosaic.Lib.ValueIdx
import Idealize.ShloMosaic.PureOps.Ideal.Laws
import proofs.«147186_j59365037965877_2_alg».proof.Proof.LibDenseLayer
import proofs.«147186_j59365037965877_2_alg».proof.Proof.LibDenseBranch

noncomputable section

open scoped BigOperators

namespace Cert.Net

open Idealize.ShloMosaic Idealize.ShloMosaic.ValueIdx

/-- An [r, c] array of extended reals. -/
abbrev Mat (r c : ℕ) : Type := (⟨2, ![r, c]⟩ : Shape).Idx → EReal

variable {a N : ℕ}

/-- The first layer at an entry: the two partial products, the bias of the column, the rectifier. -/
def first (L : Mat a 256) (P : Mat a 3) (Wl : Mat 256 256) (Wp : Mat 3 256) (B0 : Mat 1 256) : Mat a 256 :=
  fun i => max ((Cert.Dense.prod L Wl i + Cert.Dense.prod P Wp i) + B0 (ix2 (0 : Fin 1) (i 1)))
    (Ideal.ofBits .f32 0x00000000#32)

/-- The two layers after it: a rectified dense layer, then a dense layer. -/
def hidden (L : Mat a 256) (P : Mat a 3) (Wl : Mat 256 256) (Wp : Mat 3 256) (B0 : Mat 1 256)
    (W1 : Mat 256 256) (B1 : Mat 1 256) (W2 : Mat 256 256) (B2 : Mat 1 256) : Mat a 256 :=
  Cert.Dense.biased (Cert.Branch.act (first L P Wl Wp B0) W1 B1) W2 B2

/-- The whole network: the read-out column of the hidden layers. -/
def net (L : Mat a 256) (P : Mat a 3) (Wl : Mat 256 256) (Wp : Mat 3 256) (B0 : Mat 1 256)
    (W1 : Mat 256 256) (B1 : Mat 1 256) (W2 : Mat 256 256) (B2 : Mat 1 256) (Wo : Mat 256 1) (Bo : Mat 1 1) :
    Mat a 1 :=
  Cert.Dense.biased (hidden L P Wl Wp B0 W1 B1 W2 B2) Wo Bo

section Rows

variable (L : Mat N 256) (P : Mat N 3) (Lb : Mat a 256) (Pb : Mat a 3)
  (Wl : Mat 256 256) (Wp : Mat 3 256) (B0 : Mat 1 256) (W1 : Mat 256 256) (B1 : Mat 1 256)
  (W2 : Mat 256 256) (B2 : Mat 1 256) (Wo : Mat 256 1) (Bo : Mat 1 1)
  (r : Fin a) (R : Fin N)
  (hL : ∀ c : Fin 256, Lb (ix2 r c) = L (ix2 R c)) (hP : ∀ c : Fin 3, Pb (ix2 r c) = P (ix2 R c))

include hL hP in
/-- If row r of the block is row R of the array, the first layer of the block at row r is the first layer of the
    array at row R. -/
theorem first_rows (q : Fin 256) : first Lb Pb Wl Wp B0 (ix2 r q) = first L P Wl Wp B0 (ix2 R q) := by
  show max ((∑ c : Fin 256, Lb (ix2 r c) * Wl (ix2 c q)) + (∑ c : Fin 3, Pb (ix2 r c) * Wp (ix2 c q))
      + B0 (ix2 (0 : Fin 1) q)) _
    = max ((∑ c : Fin 256, L (ix2 R c) * Wl (ix2 c q)) + (∑ c : Fin 3, P (ix2 R c) * Wp (ix2 c q))
      + B0 (ix2 (0 : Fin 1) q)) _
  simp only [hL, hP]

include hL hP in
/-- The same for the hidden layers. -/
theorem hidden_rows (q : Fin 256) :
    hidden Lb Pb Wl Wp B0 W1 B1 W2 B2 (ix2 r q) = hidden L P Wl Wp B0 W1 B1 W2 B2 (ix2 R q) := by
  show Cert.Dense.prod (Cert.Branch.act (first Lb Pb Wl Wp B0) W1 B1) W2 (ix2 r q) + B2 (ix2 (0 : Fin 1) q)
    = Cert.Dense.prod (Cert.Branch.act (first L P Wl Wp B0) W1 B1) W2 (ix2 R q) + B2 (ix2 (0 : Fin 1) q)
  refine congrArg (· + B2 (ix2 (0 : Fin 1) q)) ?_
  refine Cert.Branch.prod_at _ W2 _ W2 (ix2 r q) (ix2 R q) (fun c => ?_) (fun _ => rfl) rfl
  exact Cert.Branch.act_at _ W1 B1 _ W1 B1 (ix2 r c) (ix2 R c)
    (fun c' => first_rows L P Lb Pb Wl Wp B0 r R hL hP c') (fun _ => rfl) (fun _ => rfl) rfl

include hL hP in
/-- The same for the read-out. -/
theorem net_rows (u : Fin 1) :
    net Lb Pb Wl Wp B0 W1 B1 W2 B2 Wo Bo (ix2 r u) = net L P Wl Wp B0 W1 B1 W2 B2 Wo Bo (ix2 R u) := by
  show Cert.Dense.prod (hidden Lb Pb Wl Wp B0 W1 B1 W2 B2) Wo (ix2 r u) + Bo (ix2 (0 : Fin 1) u)
    = Cert.Dense.prod (hidden L P Wl Wp B0 W1 B1 W2 B2) Wo (ix2 R u) + Bo (ix2 (0 : Fin 1) u)
  refine congrArg (· + Bo (ix2 (0 : Fin 1) u)) ?_
  exact Cert.Branch.prod_at _ Wo _ Wo (ix2 r u) (ix2 R u)
    (fun c => hidden_rows L P Lb Pb Wl Wp B0 W1 B1 W2 B2 r R hL hP c) (fun _ => rfl) rfl

end Rows

end Cert.Net

end
-- ==== Proof.Tile.lean ====
/-
  The network as a tile of rows spells it, on the extended reals.

  On a block of rows the body multiplies on the matrix unit — the operands rounded to bfloat16, which on the extended
  reals changes nothing, into a zero accumulator — adds a bias vector laid out as one row and spread over the rows,
  and takes the maximum with a zero spread over the tile.  Each such step is the corresponding function of
  `Cert.Net`, as whole arrays: a product (`matmul_prod`), the first layer (`first_eq`), a rectified layer
  (`act_eq`), a plain layer (`biased_eq`); composed, the body's two values are `Cert.Net.hidden` and `Cert.Net.net`
  of the loaded blocks (`hidden_eq`, `net_eq`).
-/
import Idealize.ShloMosaic.Lib.Pipeline.Value
import Idealize.ShloMosaic.Lib.ValueIdx
import Idealize.ShloMosaic.Lib.ValueLayout
import Idealize.ShloMosaic.PureOps.Ideal.Laws
import proofs.«147186_j59365037965877_2_alg».proof.Proof.LibMatmulPlain
import proofs.«147186_j59365037965877_2_alg».proof.Proof.Net

noncomputable section

open scoped BigOperators

namespace Cert.Tile

open Idealize.ShloMosaic Idealize.ShloMosaic.ValueIdx

variable {a k n : ℕ}

/-- A row [1, n] spread over the rows of an [a, n] array and added: entry (r, q) gains the row's entry q. -/
theorem row_add (X : FVec Ideal ⟨2, ![a, n]⟩ .f32) (R : FVec Ideal ⟨2, ![1, n]⟩ .f32)
    (hbr : (⟨2, ![1, n]⟩ : Shape).Broadcasts ⟨2, ![a, n]⟩) (r : Fin a) (q : Fin n) :
    addf X (broadcastTo ⟨2, ![a, n]⟩ R hbr) (ix2 r q) = X (ix2 r q) + R (ix2 (0 : Fin 1) q) := by
  rw [addf_apply, broadcastTo_1b_ab_apply]

section Products

variable (d : DotDims ⟨2, ![a, k]⟩ ⟨2, ![k, n]⟩ ⟨2, ![a, n]⟩)
  (hlc : d.lhsContracting = [1]) (hrc : d.rhsContracting = [0]) (hln : d.lhsNonContracting = [0])
  (hrn : d.rhsNonContracting = [1]) (hlb : d.lhsBatch = []) (hrb : d.rhsBatch = [])

include hlc hrc hln hrn hlb hrb in
/-- The matrix unit's product into a zero accumulator is the product, whatever formats the operands are held in. -/
theorem matmul_prod {φ₁ φ₂ : FTy} (X : FVec Ideal ⟨2, ![a, k]⟩ φ₁) (Y : FVec Ideal ⟨2, ![k, n]⟩ φ₂) :
    matmul d none X Y (constant (F := Ideal) ⟨2, ![a, n]⟩ .f32 0x00000000#32) = Cert.Dense.prod X Y := by
  funext j
  obtain ⟨r, q, rfl⟩ : ∃ (r : Fin a) (q : Fin n), j = ix2 r q := ⟨j 0, j 1, eq_ix2 j⟩
  exact Cert.LibMatmulPlain.matmul_zero_apply d hlc hrc hln hrn hlb hrb none X Y r q

end Products

/-- A product plus a bias row, against zero: the rectified layer. -/
theorem act_eq (X : Cert.Net.Mat a k) (W : Cert.Net.Mat k n) (R : FVec Ideal ⟨2, ![1, n]⟩ .f32)
    (hbr : (⟨2, ![1, n]⟩ : Shape).Broadcasts ⟨2, ![a, n]⟩) :
    maximumf (φ := .f32) (addf (φ := .f32) (Cert.Dense.prod X W) (broadcastTo ⟨2, ![a, n]⟩ R hbr))
        (broadcast ⟨2, ![a, n]⟩ (Scalar.ofBits (F := Ideal) .f32 0x00000000#32))
      = Cert.Branch.act X W R := by
  funext i
  obtain ⟨r, q, rfl⟩ : ∃ (r : Fin a) (q : Fin n), i = ix2 r q := ⟨i 0, i 1, eq_ix2 i⟩
  rw [maximumf_apply, row_add, broadcast_apply]
  rfl

/-- A product plus a bias row: the plain layer. -/
theorem biased_eq (X : Cert.Net.Mat a k) (W : Cert.Net.Mat k n) (R : FVec Ideal ⟨2, ![1, n]⟩ .f32)
    (hbr : (⟨2, ![1, n]⟩ : Shape).Broadcasts ⟨2, ![a, n]⟩) :
    addf (φ := .f32) (Cert.Dense.prod X W) (broadcastTo ⟨2, ![a, n]⟩ R hbr) = Cert.Dense.biased X W R := by
  funext i
  obtain ⟨r, q, rfl⟩ : ∃ (r : Fin a) (q : Fin n), i = ix2 r q := ⟨i 0, i 1, eq_ix2 i⟩
  rw [row_add]
  rfl

/-- The two partial products added, plus a bias row, against zero: the first layer. -/
theorem first_eq (L : Cert.Net.Mat a 256) (P : Cert.Net.Mat a 3) (Wl : Cert.Net.Mat 256 256) (Wp : Cert.Net.Mat 3 256)
    (R : FVec Ideal ⟨2, ![1, 256]⟩ .f32) (hbr : (⟨2, ![1, 256]⟩ : Shape).Broadcasts ⟨2, ![a, 256]⟩) :
    maximumf (φ := .f32) (addf (φ := .f32) (addf (φ := .f32) (Cert.Dense.prod L Wl) (Cert.Dense.prod P Wp))
          (broadcastTo ⟨2, ![a, 256]⟩ R hbr))
        (broadcast ⟨2, ![a, 256]⟩ (Scalar.ofBits (F := Ideal) .f32 0x00000000#32))
      = Cert.Net.first L P Wl Wp R := by
  funext i
  obtain ⟨r, q, rfl⟩ : ∃ (r : Fin a) (q : Fin 256), i = ix2 r q := ⟨i 0, i 1, eq_ix2 i⟩
  rw [maximumf_apply, row_add, addf_apply, broadcast_apply]
  rfl

section Body

variable (dA : DotDims ⟨2, ![a, 256]⟩ ⟨2, ![256, 256]⟩ ⟨2, ![a, 256]⟩)
  (hAlc : dA.lhsContracting = [1]) (hArc : dA.rhsContracting = [0]) (hAln : dA.lhsNonContracting = [0])
  (hArn : dA.rhsNonContracting = [1]) (hAlb : dA.lhsBatch = []) (hArb : dA.rhsBatch = [])
  (dP : DotDims ⟨2, ![a, 3]⟩ ⟨2, ![3, 256]⟩ ⟨2, ![a, 256]⟩)
  (hPlc : dP.lhsContracting = [1]) (hPrc : dP.rhsContracting = [0]) (hPln : dP.lhsNonContracting = [0])
  (hPrn : dP.rhsNonContracting = [1]) (hPlb : dP.lhsBatch = []) (hPrb : dP.rhsBatch = [])

include hAlc hArc hAln hArn hAlb hArb hPlc hPrc hPln hPrn hPlb hPrb in
/-- The body's value before the read-out, of the loaded blocks: the hidden layers of the block's rows. -/
theorem hidden_eq (v0 : FVec Ideal ⟨2, ![a, 256]⟩ .bf16) (v2 : FVec Ideal ⟨2, ![a, 3]⟩ .f32)
    (v5 : FVec Ideal ⟨2, ![256, 256]⟩ .f32) (v8 : FVec Ideal ⟨2, ![3, 256]⟩ .f32) (v14 : FVec Ideal ⟨1, ![256]⟩ .f32)
    (v21 : FVec Ideal ⟨2, ![256, 256]⟩ .f32) (v24 : FVec Ideal ⟨1, ![256]⟩ .f32)
    (v31 : FVec Ideal ⟨2, ![256, 256]⟩ .f32) (v34 : FVec Ideal ⟨1, ![256]⟩ .f32)
    (hb : FTy.bf16.bits < FTy.f32.bits)
    (hcL : (⟨2, ![a, 256]⟩ : Shape).ShapeCasts ⟨2, ![a, 256]⟩) (hcP : (⟨2, ![a, 3]⟩ : Shape).ShapeCasts ⟨2, ![a, 3]⟩)
    (hcW : (⟨2, ![256, 256]⟩ : Shape).ShapeCasts ⟨2, ![256, 256]⟩)
    (hcWp : (⟨2, ![3, 256]⟩ : Shape).ShapeCasts ⟨2, ![3, 256]⟩)
    (hrow : (⟨1, ![256]⟩ : Shape).ShapeCasts ⟨2, ![1, 256]⟩)
    (hbr : (⟨2, ![1, 256]⟩ : Shape).Broadcasts ⟨2, ![a, 256]⟩) :
    addf (φ := .f32)
        (matmul dA none
          (truncf .bf16
            (maximumf (φ := .f32)
              (addf (φ := .f32)
                (matmul dA none
                  (truncf .bf16
                    (maximumf (φ := .f32)
                      (addf (φ := .f32)
                        (addf (φ := .f32)
                          (matmul dA none (shapeCast ⟨2, ![a, 256]⟩ v0 hcL)
                            (truncf .bf16 (shapeCast ⟨2, ![256, 256]⟩ v5 hcW) hb)
                            (constant (F := Ideal) ⟨2, ![a, 256]⟩ .f32 0x00000000#32))
                          (matmul dP none (truncf .bf16 (shapeCast ⟨2, ![a, 3]⟩ v2 hcP) hb)
                            (truncf .bf16 (shapeCast ⟨2, ![3, 256]⟩ v8 hcWp) hb)
                            (constant (F := Ideal) ⟨2, ![a, 256]⟩ .f32 0x00000000#32)))
                        (broadcastTo ⟨2, ![a, 256]⟩ (shapeCast ⟨2, ![1, 256]⟩ v14 hrow) hbr))
                      (broadcast ⟨2, ![a, 256]⟩ (Scalar.ofBits (F := Ideal) .f32 0x00000000#32)))
                    hb)
                  (truncf .bf16 v21 hb) (constant (F := Ideal) ⟨2, ![a, 256]⟩ .f32 0x00000000#32))
                (broadcastTo ⟨2, ![a, 256]⟩ (shapeCast ⟨2, ![1, 256]⟩ v24 hrow) hbr))
              (broadcast ⟨2, ![a, 256]⟩ (Scalar.ofBits (F := Ideal) .f32 0x00000000#32)))
            hb)
          (truncf .bf16 v31 hb) (constant (F := Ideal) ⟨2, ![a, 256]⟩ .f32 0x00000000#32))
        (broadcastTo ⟨2, ![a, 256]⟩ (shapeCast ⟨2, ![1, 256]⟩ v34 hrow) hbr)
      = Cert.Net.hidden v0 v2 v5 v8 (shapeCast ⟨2, ![1, 256]⟩ v14 hrow) v21 (shapeCast ⟨2, ![1, 256]⟩ v24 hrow)
          v31 (shapeCast ⟨2, ![1, 256]⟩ v34 hrow) := by
  rw [shapeCast_self v0, shapeCast_self v5, shapeCast_self v2, shapeCast_self v8,
    matmul_prod dA hAlc hArc hAln hArn hAlb hArb v0, matmul_prod dP hPlc hPrc hPln hPrn hPlb hPrb,
    first_eq, matmul_prod dA hAlc hArc hAln hArn hAlb hArb, matmul_prod dA hAlc hArc hAln hArn hAlb hArb,
    act_eq, biased_eq]
  rfl

end Body

section ReadOut

variable (dO : DotDims ⟨2, ![a, 256]⟩ ⟨2, ![256, 1]⟩ ⟨2, ![a, 1]⟩)
  (hOlc : dO.lhsContracting = [1]) (hOrc : dO.rhsContracting = [0]) (hOln : dO.lhsNonContracting = [0])
  (hOrn : dO.rhsNonContracting = [1]) (hOlb : dO.lhsBatch = []) (hOrb : dO.rhsBatch = [])

include hOlc hOrc hOln hOrn hOlb hOrb in
/-- The body's stored value of the hidden layers and the loaded read-out column and bias: the read-out layer. -/
theorem readout_eq (H : FVec Ideal ⟨2, ![a, 256]⟩ .f32) (v39 : FVec Ideal ⟨2, ![256, 1]⟩ .f32)
    (v43 : FVec Ideal ⟨1, ![1]⟩ .f32) (hb : FTy.bf16.bits < FTy.f32.bits)
    (hcW : (⟨2, ![256, 1]⟩ : Shape).ShapeCasts ⟨2, ![256, 1]⟩) (hc1 : (⟨1, ![1]⟩ : Shape).ShapeCasts ⟨1, ![1]⟩)
    (hc11 : (⟨1, ![1]⟩ : Shape).ShapeCasts ⟨2, ![1, 1]⟩) (hbr : (⟨2, ![1, 1]⟩ : Shape).Broadcasts ⟨2, ![a, 1]⟩) :
    addf (φ := .f32)
        (matmul dO none (truncf .bf16 H hb) (truncf .bf16 (shapeCast ⟨2, ![256, 1]⟩ v39 hcW) hb)
          (constant (F := Ideal) ⟨2, ![a, 1]⟩ .f32 0x00000000#32))
        (broadcastTo ⟨2, ![a, 1]⟩ (shapeCast ⟨2, ![1, 1]⟩ (shapeCast ⟨1, ![1]⟩ v43 hc1) hc11) hbr)
      = Cert.Dense.biased H v39 (shapeCast ⟨2, ![1, 1]⟩ v43 hc11) := by
  rw [shapeCast_self v39, shapeCast_self v43, matmul_prod dO hOlc hOrc hOln hOrn hOlb hOrb, biased_eq]
  rfl

end ReadOut

end Cert.Tile

end
-- ==== Proof.KernelValue.lean ====
/-
  What the kernel program leaves in its result, on the extended reals.

  The grid has 125 points; point t is handed rows 4000 t … 4000 t + 3999 of the two edge arrays (the relative
  coordinates and the gathered latent rows), the whole of every weight and bias array, and writes rows
  4000 t … 4000 t + 3999 of a [500000, 1] column.  What it writes is the network (`Cert.Net.net`) of its blocks
  (`out_eq`: the body's two values are the hidden layers and the read-out), and since every row of the network reads
  its own row of the edge arrays only, that is the block of the network of the whole arrays (`block_net`,
  `flushed_eq`).  The 125 blocks tile the column (`cover`), so the column ends holding the network of the whole
  arrays (`column`); the host line after the region lays the column out as a vector (`result_eq`, `run`).
-/
import proofs.«147186_j59365037965877_2_alg».proof.Proof.Gen.KernelIdeal.Frame
import Idealize.ShloMosaic.Lib.Pipeline.Value
import Idealize.ShloMosaic.Lib.StableHlo.Run
import Idealize.ShloMosaic.Lib.Tactic
import proofs.«147186_j59365037965877_2_alg».proof.Proof.Tile

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

theorem hz : (![0, 0] : Fin 2 → Nat) = fun _ => 0 := funext fun a => by fin_cases a <;> rfl
theorem hz1 : (![0] : Fin 1 → Nat) = fun _ => 0 := funext fun a => by fin_cases a <;> rfl

/-! ## The body's values -/

/-- The value the body carries to its last step is the hidden layers of the loaded blocks. -/
theorem pay2_eq (v0 : Vec Ideal S4000x256 .bf16) (v2 : Vec Ideal S4000x3 .f32) (v5 : Vec Ideal S256x256 .f32)
    (v8 : Vec Ideal S3x256 .f32) (v14 : Vec Ideal S256 .f32) (v21 : Vec Ideal S256x256 .f32) (v24 : Vec Ideal S256 .f32)
    (v31 : Vec Ideal S256x256 .f32) (v34 : Vec Ideal S256 .f32) :
    k0_pay2 (F := Ideal) v0 v2 v5 v8 v14 v21 v24 v31 v34
      = Cert.Net.hidden v0 v2 v5 v8 (shapeCast S1x256 v14 shapeCasts_S256_S1x256) v21
          (shapeCast S1x256 v24 shapeCasts_S256_S1x256) v31 (shapeCast S1x256 v34 shapeCasts_S256_S1x256) := by
  unfold k0_pay2
  exact Cert.Tile.hidden_eq dot_S4000x256_S256x256_S4000x256_1_0_0_1_n_n rfl rfl rfl rfl rfl rfl
    dot_S4000x3_S3x256_S4000x256_1_0_0_1_n_n rfl rfl rfl rfl rfl rfl v0 v2 v5 v8 v14 v21 v24 v31 v34
    bitsLt_bf16_f32 shapeCasts_S4000x256_S4000x256 shapeCasts_S4000x3_S4000x3 shapeCasts_S256x256_S256x256
    shapeCasts_S3x256_S3x256 shapeCasts_S256_S1x256 broadcasts_S1x256_S4000x256

/-- The value the body stores is the read-out layer of that value. -/
theorem pay1_eq (v37 : FVec Ideal S4000x256 .f32) (v39 : Vec Ideal S256x1 .f32) (v43 : Vec Ideal S1 .f32) :
    k0_pay1 (F := Ideal) v37 v39 v43 = Cert.Dense.biased v37 v39 (shapeCast S1x1 v43 shapeCasts_S1_S1x1) := by
  unfold k0_pay1
  exact Cert.Tile.readout_eq dot_S4000x256_S256x1_S4000x1_1_0_0_1_n_n rfl rfl rfl rfl rfl rfl v37 v39 v43
    bitsLt_bf16_f32 shapeCasts_S256x1_S256x1 shapeCasts_S1_S1 shapeCasts_S1_S1x1 broadcasts_S1x1_S4000x1

/-- The network with its arrays in the order the windows hand them over, the bias vectors laid out as rows. -/
abbrev netOf {a : ℕ} (A0 : Cert.Net.Mat a 3) (A1 : Cert.Net.Mat a 256) (A2 : S256x256.Idx → EReal) (A3 : S3x256.Idx → EReal)
    (A4 : S256.Idx → EReal) (A5 : S256x256.Idx → EReal) (A6 : S256.Idx → EReal) (A7 : S256x256.Idx → EReal)
    (A8 : S256.Idx → EReal) (A9 : S256x1.Idx → EReal) (A10 : S1.Idx → EReal) : Cert.Net.Mat a 1 :=
  Cert.Net.net A1 A0 A2 A3 (shapeCast S1x256 A4 shapeCasts_S256_S1x256) A5 (shapeCast S1x256 A6 shapeCasts_S256_S1x256)
    A7 (shapeCast S1x256 A8 shapeCasts_S256_S1x256) A9 (shapeCast S1x1 A10 shapeCasts_S1_S1x1)

/-- What the body leaves in the output window's buffer: the network of the eleven loaded blocks. -/
theorem out_eq (x0 : Vec Ideal S4000x3 .f32) (x1 : Vec Ideal S4000x256 .bf16) (x2 : Vec Ideal S256x256 .f32)
    (x3 : Vec Ideal S3x256 .f32) (x4 : Vec Ideal S256 .f32) (x5 : Vec Ideal S256x256 .f32) (x6 : Vec Ideal S256 .f32)
    (x7 : Vec Ideal S256x256 .f32) (x8 : Vec Ideal S256 .f32) (x9 : Vec Ideal S256x1 .f32) (x10 : Vec Ideal S1 .f32) :
    out0_11 (F := Ideal) x0 x1 x2 x3 x4 x5 x6 x7 x8 x9 x10 = netOf x0 x1 x2 x3 x4 x5 x6 x7 x8 x9 x10 := by
  unfold out0_11
  rw [View.canon_unit_zero hz]
  simp only [View.ld_unit_zero (S := S4000x256) hz, View.ld_unit_zero (S := S4000x3) hz,
    View.ld_unit_zero (S := S256x256) hz, View.ld_unit_zero (S := S3x256) hz, View.ld_unit_zero (S := S256) hz1,
    View.ld_unit_zero (S := S256x1) hz, View.ld_unit_zero (S := S1) hz1]
  rw [pay2_eq, pay1_eq]
  rfl

/-- The block's network at a row is the whole arrays' network at the row the block's row is: an entry reads its own
    row of the two edge arrays, and the other nine arrays are handed over whole. -/
theorem block_net (x0 : Vec Ideal S4000x3 .f32) (x1 : Vec Ideal S4000x256 .bf16) (x2 : Vec Ideal S256x256 .f32)
    (x3 : Vec Ideal S3x256 .f32) (x4 : Vec Ideal S256 .f32) (x5 : Vec Ideal S256x256 .f32) (x6 : Vec Ideal S256 .f32)
    (x7 : Vec Ideal S256x256 .f32) (x8 : Vec Ideal S256 .f32) (x9 : Vec Ideal S256x1 .f32) (x10 : Vec Ideal S1 .f32)
    (A0 : S500000x3.Idx → EReal) (A1 : S500000x256.Idx → EReal) (A2 : S256x256.Idx → EReal) (A3 : S3x256.Idx → EReal)
    (A4 : S256.Idx → EReal) (A5 : S256x256.Idx → EReal) (A6 : S256.Idx → EReal) (A7 : S256x256.Idx → EReal)
    (A8 : S256.Idx → EReal) (A9 : S256x1.Idx → EReal) (A10 : S1.Idx → EReal)
    (j : S4000x1.Idx) (R : Fin 500000)
    (h0 : ∀ c : Fin 3, x0 (ix2 (j 0) c) = A0 (ix2 R c)) (h1 : ∀ c : Fin 256, x1 (ix2 (j 0) c) = A1 (ix2 R c))
    (h2 : x2 = A2) (h3 : x3 = A3) (h4 : x4 = A4) (h5 : x5 = A5) (h6 : x6 = A6) (h7 : x7 = A7) (h8 : x8 = A8)
    (h9 : x9 = A9) (h10 : x10 = A10) :
    out0_11 (F := Ideal) x0 x1 x2 x3 x4 x5 x6 x7 x8 x9 x10 j = netOf A0 A1 A2 A3 A4 A5 A6 A7 A8 A9 A10 (ix2 R (j 1)) := by
  subst h2 h3 h4 h5 h6 h7 h8 h9 h10
  rw [out_eq, eq_ix2 j]
  exact Cert.Net.net_rows A1 A0 x1 x0 _ _ _ _ _ _ _ _ _ (j 0) R h1 h0 (j 1)

/-! ## The blocks and the column -/

variable (m : (ℓ : Loc nD τ sig) → Buf (Elt Ideal) ℓ) (ρ : Dev nD → PrngReg)

/-- The column the region leaves: the network of the arrays as the region finds them. -/
abbrev G (c : Dev nD) : S500000x1.Idx → EReal :=
  netOf (V m c main_v15) (V m c main_v22) (V m c main_v23) (V m c main_v24) (V m c main_arg6) (V m c main_arg7)
    (V m c main_arg8) (V m c main_arg9) (V m c main_arg10) (V m c main_v25) (V m c main_v26)

/-- The printed index maps over the grid: the two edge windows and the output window move one block of rows per
    point, every other window stays on its one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0
    ∧ win0_9.index t (0 : Fin 2) = 0 ∧ win0_9.index t (1 : Fin 2) = 0
    ∧ win0_10.index t (0 : Fin 1) = 0
    ∧ win0_11.index t (0 : Fin 2) = t.val ∧ win0_11.index t (1 : Fin 2) = 0 :=
  (by decide +kernel : ∀ t : Fin grid0.N, _)

/-- Point t's block of the relative coordinates is rows 4000 t … of the array. -/
theorem iblk0_rows (c : Dev nD) (t : Fin cfg0.N) (p : Fin 4000) (c' : Fin 3) (R : Fin 500000)
    (hR : R.val = t.val * 4000 + p.val) :
    (iblk m c 0 t : Vec Ideal S4000x3 .f32) (ix2 p c') = V m c main_v15 (ix2 R c') := by
  obtain ⟨e00, e01, -⟩ := idx_facts t
  unfold iblk
  rw [View.read_apply]
  show V m c main_v15 _ = V m c main_v15 _
  congr 1
  funext a; apply Fin.ext
  match a with
  | ⟨0, _⟩ => show win0_0.index t (0 : Fin 2) * 4000 + 1 * p.val = R.val; rw [e00, hR]; omega
  | ⟨1, _⟩ => show win0_0.index t (1 : Fin 2) * 3 + 1 * c'.val = c'.val; rw [e01]; omega

/-- Point t's block of the gathered latent rows is rows 4000 t … of the array. -/
theorem iblk1_rows (c : Dev nD) (t : Fin cfg0.N) (p : Fin 4000) (c' : Fin 256) (R : Fin 500000)
    (hR : R.val = t.val * 4000 + p.val) :
    (iblk m c 1 t : Vec Ideal S4000x256 .bf16) (ix2 p c') = V m c main_v22 (ix2 R c') := by
  obtain ⟨-, -, e10, e11, -⟩ := idx_facts t
  unfold iblk
  rw [View.read_apply]
  show V m c main_v22 _ = V m c main_v22 _
  congr 1
  funext a; apply Fin.ext
  match a with
  | ⟨0, _⟩ => show win0_1.index t (0 : Fin 2) * 4000 + 1 * p.val = R.val; rw [e10, hR]; omega
  | ⟨1, _⟩ => show win0_1.index t (1 : Fin 2) * 256 + 1 * c'.val = c'.val; rw [e11]; omega

/-- Window 2 stays on its one block: what a point is handed is the whole array. -/
theorem iblk2_eq (c : Dev nD) (t : Fin cfg0.N) : (iblk m c 2 t : Vec Ideal S256x256 .f32) = V m c main_v23 := by
  obtain ⟨e00, e01, e10, e11, e20, e21, e30, e31, e40, e50, e51, e60, e70, e71, e80, e90, e91, e100, eo0, eo1⟩ :=
    idx_facts t
  funext y
  unfold iblk
  rw [View.read_apply]
  show V m c main_v23 _ = V m c main_v23 _
  congr 1
  funext a; apply Fin.ext
  match a with
  | ⟨0, _⟩ => show win0_2.index t (0 : Fin 2) * 256 + 1 * (y 0).val = (y 0).val; rw [e20]; omega
  | ⟨1, _⟩ => show win0_2.index t (1 : Fin 2) * 256 + 1 * (y 1).val = (y 1).val; rw [e21]; omega

/-- Window 3 stays on its one block: what a point is handed is the whole array. -/
theorem iblk3_eq (c : Dev nD) (t : Fin cfg0.N) : (iblk m c 3 t : Vec Ideal S3x256 .f32) = V m c main_v24 := by
  obtain ⟨e00, e01, e10, e11, e20, e21, e30, e31, e40, e50, e51, e60, e70, e71, e80, e90, e91, e100, eo0, eo1⟩ :=
    idx_facts t
  funext y
  unfold iblk
  rw [View.read_apply]
  show V m c main_v24 _ = V m c main_v24 _
  congr 1
  funext a; apply Fin.ext
  match a with
  | ⟨0, _⟩ => show win0_3.index t (0 : Fin 2) * 3 + 1 * (y 0).val = (y 0).val; rw [e30]; omega
  | ⟨1, _⟩ => show win0_3.index t (1 : Fin 2) * 256 + 1 * (y 1).val = (y 1).val; rw [e31]; omega

/-- Window 4 stays on its one block: what a point is handed is the whole array. -/
theorem iblk4_eq (c : Dev nD) (t : Fin cfg0.N) : (iblk m c 4 t : Vec Ideal S256 .f32) = V m c main_arg6 := by
  obtain ⟨e00, e01, e10, e11, e20, e21, e30, e31, e40, e50, e51, e60, e70, e71, e80, e90, e91, e100, eo0, eo1⟩ :=
    idx_facts t
  funext y
  unfold iblk
  rw [View.read_apply]
  show V m c main_arg6 _ = V m c main_arg6 _
  congr 1
  funext a; apply Fin.ext
  match a with
  | ⟨0, _⟩ => show win0_4.index t (0 : Fin 1) * 256 + 1 * (y 0).val = (y 0).val; rw [e40]; omega

/-- Window 5 stays on its one block: what a point is handed is the whole array. -/
theorem iblk5_eq (c : Dev nD) (t : Fin cfg0.N) : (iblk m c 5 t : Vec Ideal S256x256 .f32) = V m c main_arg7 := by
  obtain ⟨e00, e01, e10, e11, e20, e21, e30, e31, e40, e50, e51, e60, e70, e71, e80, e90, e91, e100, eo0, eo1⟩ :=
    idx_facts t
  funext y
  unfold iblk
  rw [View.read_apply]
  show V m c main_arg7 _ = V m c main_arg7 _
  congr 1
  funext a; apply Fin.ext
  match a with
  | ⟨0, _⟩ => show win0_5.index t (0 : Fin 2) * 256 + 1 * (y 0).val = (y 0).val; rw [e50]; omega
  | ⟨1, _⟩ => show win0_5.index t (1 : Fin 2) * 256 + 1 * (y 1).val = (y 1).val; rw [e51]; omega

/-- Window 6 stays on its one block: what a point is handed is the whole array. -/
theorem iblk6_eq (c : Dev nD) (t : Fin cfg0.N) : (iblk m c 6 t : Vec Ideal S256 .f32) = V m c main_arg8 := by
  obtain ⟨e00, e01, e10, e11, e20, e21, e30, e31, e40, e50, e51, e60, e70, e71, e80, e90, e91, e100, eo0, eo1⟩ :=
    idx_facts t
  funext y
  unfold iblk
  rw [View.read_apply]
  show V m c main_arg8 _ = V m c main_arg8 _
  congr 1
  funext a; apply Fin.ext
  match a with
  | ⟨0, _⟩ => show win0_6.index t (0 : Fin 1) * 256 + 1 * (y 0).val = (y 0).val; rw [e60]; omega

/-- Window 7 stays on its one block: what a point is handed is the whole array. -/
theorem iblk7_eq (c : Dev nD) (t : Fin cfg0.N) : (iblk m c 7 t : Vec Ideal S256x256 .f32) = V m c main_arg9 := by
  obtain ⟨e00, e01, e10, e11, e20, e21, e30, e31, e40, e50, e51, e60, e70, e71, e80, e90, e91, e100, eo0, eo1⟩ :=
    idx_facts t
  funext y
  unfold iblk
  rw [View.read_apply]
  show V m c main_arg9 _ = V m c main_arg9 _
  congr 1
  funext a; apply Fin.ext
  match a with
  | ⟨0, _⟩ => show win0_7.index t (0 : Fin 2) * 256 + 1 * (y 0).val = (y 0).val; rw [e70]; omega
  | ⟨1, _⟩ => show win0_7.index t (1 : Fin 2) * 256 + 1 * (y 1).val = (y 1).val; rw [e71]; omega

/-- Window 8 stays on its one block: what a point is handed is the whole array. -/
theorem iblk8_eq (c : Dev nD) (t : Fin cfg0.N) : (iblk m c 8 t : Vec Ideal S256 .f32) = V m c main_arg10 := by
  obtain ⟨e00, e01, e10, e11, e20, e21, e30, e31, e40, e50, e51, e60, e70, e71, e80, e90, e91, e100, eo0, eo1⟩ :=
    idx_facts t
  funext y
  unfold iblk
  rw [View.read_apply]
  show V m c main_arg10 _ = V m c main_arg10 _
  congr 1
  funext a; apply Fin.ext
  match a with
  | ⟨0, _⟩ => show win0_8.index t (0 : Fin 1) * 256 + 1 * (y 0).val = (y 0).val; rw [e80]; omega

/-- Window 9 stays on its one block: what a point is handed is the whole array. -/
theorem iblk9_eq (c : Dev nD) (t : Fin cfg0.N) : (iblk m c 9 t : Vec Ideal S256x1 .f32) = V m c main_v25 := by
  obtain ⟨e00, e01, e10, e11, e20, e21, e30, e31, e40, e50, e51, e60, e70, e71, e80, e90, e91, e100, eo0, eo1⟩ :=
    idx_facts t
  funext y
  unfold iblk
  rw [View.read_apply]
  show V m c main_v25 _ = V m c main_v25 _
  congr 1
  funext a; apply Fin.ext
  match a with
  | ⟨0, _⟩ => show win0_9.index t (0 : Fin 2) * 256 + 1 * (y 0).val = (y 0).val; rw [e90]; omega
  | ⟨1, _⟩ => show win0_9.index t (1 : Fin 2) * 1 + 1 * (y 1).val = (y 1).val; rw [e91]; omega

/-- Window 10 stays on its one block: what a point is handed is the whole array. -/
theorem iblk10_eq (c : Dev nD) (t : Fin cfg0.N) : (iblk m c 10 t : Vec Ideal S1 .f32) = V m c main_v26 := by
  obtain ⟨e00, e01, e10, e11, e20, e21, e30, e31, e40, e50, e51, e60, e70, e71, e80, e90, e91, e100, eo0, eo1⟩ :=
    idx_facts t
  funext y
  unfold iblk
  rw [View.read_apply]
  show V m c main_v26 _ = V m c main_v26 _
  congr 1
  funext a; apply Fin.ext
  match a with
  | ⟨0, _⟩ => show win0_10.index t (0 : Fin 1) * 1 + 1 * (y 0).val = (y 0).val; rw [e100]; omega

/-- The output block's row p is row 4000 t + p of the column. -/
theorem emb_out (t : Fin cfg0.N) (j : S4000x1.Idx) (R : Fin 500000) (hR : R.val = t.val * 4000 + (j 0).val) :
    ((cfg0.win 11).blk t).view.emb j = ix2 R (j 1) := by
  obtain ⟨-, -, -, -, -, -, -, -, -, -, -, -, -, -, -, -, -, -, eo0, eo1⟩ := idx_facts t
  have hj1 : (j 1).val < 1 := (j 1).isLt
  funext a; apply Fin.ext
  match a with
  | ⟨0, _⟩ => show win0_11.index t (0 : Fin 2) * 4000 + 1 * (j 0).val = R.val; rw [eo0, hR]; omega
  | ⟨1, _⟩ => show win0_11.index t (1 : Fin 2) * 1 + 1 * (j 1).val = (j 1).val; rw [eo1]; omega

/-- WHAT POINT t WRITES BACK is block t of the column `G`. -/
theorem flushed_eq (c : Dev nD) (t : Fin cfg0.N) :
    (dats m 0 c).flushed 11 t = ((cfg0.win 11).blk t).view.read (Elt Ideal) (G m c) := by
  show (cfg0.win 11).cut (grid0.coords t) ((dats m 0 c).after 11 t) = _
  rw [after0_11]
  have hN : t.val < 125 := lt_of_lt_of_eq t.isLt N_0
  funext j
  have hj0 : (j 0).val < 4000 := (j 0).isLt
  rw [View.read_apply, emb_out t j ⟨t.val * 4000 + (j 0).val, by omega⟩ rfl]
  exact block_net (iblk m c 0 t) (iblk m c 1 t) (iblk m c 2 t) (iblk m c 3 t) (iblk m c 4 t) (iblk m c 5 t)
    (iblk m c 6 t) (iblk m c 7 t) (iblk m c 8 t) (iblk m c 9 t) (iblk m c 10 t)
    (V m c main_v15) (V m c main_v22) (V m c main_v23) (V m c main_v24) (V m c main_arg6) (V m c main_arg7)
    (V m c main_arg8) (V m c main_arg9) (V m c main_arg10) (V m c main_v25) (V m c main_v26)
    j ⟨t.val * 4000 + (j 0).val, by omega⟩
    (fun c' => iblk0_rows m c t (j 0) c' _ rfl) (fun c' => iblk1_rows m c t (j 0) c' _ rfl)
    (iblk2_eq m c t) (iblk3_eq m c t) (iblk4_eq m c t) (iblk5_eq m c t) (iblk6_eq m c t) (iblk7_eq m c t)
    (iblk8_eq m c t) (iblk9_eq m c t) (iblk10_eq m c t)

/-- An index of the column is in point t's block iff its row is among the block's 4000 rows. -/
theorem mem_blk (t : Fin cfg0.N) (i : S500000x1.Idx) :
    i ∈ ((cfg0.win 11).blk t).view.set ↔ ∀ a : Fin 2, win0_11.index t a * S4000x1.size a ≤ (i a).val
      ∧ (i a).val < win0_11.index t a * S4000x1.size a + S4000x1.size a := by
  show i ∈ ((View.whole main_v27).slice (win0_11.rect t)).set ↔ _
  rw [View.set_slice_whole, Rect.mem_set_unit]
  exact Iff.rfl

/-- Every row of the column is in some point's block: row r in the block of point r / 4000. -/
theorem cover (i : S500000x1.Idx) :
    ∃ t : Fin cfg0.N, (cfg0.win 11).flush t = true ∧ i ∈ ((cfg0.win 11).blk t).view.set := by
  have hi0 : (i 0).val < 500000 := (i 0).isLt
  have hi1 : (i 1).val < 1 := (i 1).isLt
  have hN : cfg0.N = 125 := N_0
  refine ⟨⟨(i 0).val / 4000, by rw [hN]; omega⟩, flush0_11 _, ?_⟩
  rw [mem_blk]
  obtain ⟨-, -, -, -, -, -, -, -, -, -, -, -, -, -, -, -, -, -, eo0, eo1⟩ :=
    idx_facts ⟨(i 0).val / 4000, by rw [hN]; omega⟩
  intro a
  match a with
  | ⟨0, _⟩ =>
    show win0_11.index _ (0 : Fin 2) * 4000 ≤ (i 0).val ∧ (i 0).val < win0_11.index _ (0 : Fin 2) * 4000 + 4000
    rw [eo0]
    show (i 0).val / 4000 * 4000 ≤ (i 0).val ∧ (i 0).val < (i 0).val / 4000 * 4000 + 4000
    omega
  | ⟨1, _⟩ =>
    show win0_11.index _ (1 : Fin 2) * 1 ≤ (i 1).val ∧ (i 1).val < win0_11.index _ (1 : Fin 2) * 1 + 1
    rw [eo1]
    omega

/-- THE COLUMN after the region: the network of the arrays the region found. -/
theorem column (c : Dev nD) : (dats m 0 c).arrAt 11 cfg0.N = G m c :=
  (dats m 0 c).arrAt_eq_of_cover 11 (G m c) (fun t _ => flushed_eq m c t) cover

end Cert.KernelIdeal.Hand

end
-- ==== Proof.KernelRun.lean ====
/-
  The kernel program's run, read as a value of its arguments.

  Before the region the host computes, from the arguments: the relative coordinates of every edge (two row gathers
  and a subtraction), the latent rows of every edge (a row gather of the latent table, held in bfloat16, which on the
  extended reals is the table itself), the two row ranges of the first weight matrix, and column 0 of the read-out
  weights and entry 0 of its bias.  A row number below zero counts from the end of the table (`rowCol`).  After the
  region the [500000, 1] column is laid out as a vector.  So the program ends with its result at that vector of the
  network of those arrays, and its arguments as they were: `run`.
-/
import proofs.«147186_j59365037965877_2_alg».proof.Proof.KernelValue

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

/-- Row numbers as the program normalises them before a gather: a number below zero has the table's height n added;
    the vector is then laid out as a column. -/
abbrev rowCol (n : BitVec 32) (x : (⟨S500000, .i32⟩ : BufTy).Contents (Elt Ideal)) :
    (⟨S500000x1, .i32⟩ : BufTy).Contents (Elt Ideal) :=
  broadcastInDim S500000x1 ![0] bcast_S500000_S500000x1_0
    (select (cmpi .slt x (broadcastInDim S500000 ![] bcast_S_S500000 (constantI S_ 32 0#32)))
      (addi x (broadcastInDim S500000 ![] bcast_S_S500000 (constantI S_ 32 n))) x)

variable (m : (ℓ : Loc nD τ sig) → Buf (Elt Ideal) ℓ) (ρ : Dev nD → PrngReg)

/-- The relative coordinates of every edge. -/
abbrev posRel (c : Dev nD) : S500000x3.Idx → EReal :=
  subf (F := Ideal) (s := S500000x3) (φ := .f32)
    (Host.gather gather_S200000x3_S500000x1_S500000x3_1_0_n_n_0_1_13
      ((m ((c : Thread nD τ).loc main_arg1)) : S200000x3.Idx → EReal) (rowCol 200000#32 (m ((c : Thread nD τ).loc main_arg3))))
    (Host.gather gather_S100000x3_S500000x1_S500000x3_1_0_n_n_0_1_13
      ((m ((c : Thread nD τ).loc main_arg0)) : S100000x3.Idx → EReal) (rowCol 100000#32 (m ((c : Thread nD τ).loc main_arg4))))

/-- The latent rows of every edge. -/
abbrev latRows (c : Dev nD) : S500000x256.Idx → EReal :=
  Host.gather gather_S100000x256_S500000x1_S500000x256_1_0_n_n_0_1_1256
    (truncf (F := Ideal) (s := S100000x256) (φ := .f32) .bf16 (m ((c : Thread nD τ).loc main_arg2)) bitsLt_bf16_f32 : S100000x256.Idx → EReal)
    (rowCol 100000#32 (m ((c : Thread nD τ).loc main_arg4)))

set_option maxHeartbeats 2000000 in
set_option maxRecDepth 8192 in
theorem V_v15 (c : Dev nD) : (V m c main_v15 : S500000x3.Idx → EReal) = posRel m c := by
  show StableHlo.after hostOps0 (fun b => m (c, b)) (Proc.devRef .tc main_v15) = _
  after_results_simp <;> rfl

set_option maxHeartbeats 2000000 in
set_option maxRecDepth 8192 in
theorem V_v22 (c : Dev nD) : (V m c main_v22 : S500000x256.Idx → EReal) = latRows m c := by
  show StableHlo.after hostOps0 (fun b => m (c, b)) (Proc.devRef .tc main_v22) = _
  after_results_simp <;> rfl

theorem V_v23 (c : Dev nD) : (V m c main_v23 : S256x256.Idx → EReal)
    = extractStridedSlice S256x256 ![0, 0] (m ((c : Thread nD τ).loc main_arg5)) slices_S259x256_S256x256_0_0 := by
  show StableHlo.after hostOps0 (fun b => m (c, b)) (Proc.devRef .tc main_v23) = _
  after_results

theorem V_v24 (c : Dev nD) : (V m c main_v24 : S3x256.Idx → EReal)
    = extractStridedSlice S3x256 ![256, 0] (m ((c : Thread nD τ).loc main_arg5)) slices_S259x256_S3x256_256_0 := by
  show StableHlo.after hostOps0 (fun b => m (c, b)) (Proc.devRef .tc main_v24) = _
  after_results

theorem V_v25 (c : Dev nD) : (V m c main_v25 : S256x1.Idx → EReal)
    = extractStridedSlice S256x1 ![0, 0] (m ((c : Thread nD τ).loc main_arg11)) slices_S256x2_S256x1_0_0 := by
  show StableHlo.after hostOps0 (fun b => m (c, b)) (Proc.devRef .tc main_v25) = _
  after_results

theorem V_v26 (c : Dev nD) : (V m c main_v26 : S1.Idx → EReal)
    = extractStridedSlice S1 ![0] (m ((c : Thread nD τ).loc main_arg12)) slices_S2_S1_0 := by
  show StableHlo.after hostOps0 (fun b => m (c, b)) (Proc.devRef .tc main_v26) = _
  after_results

/-- The column as a function of the program's arguments. -/
abbrev Gm (c : Dev nD) : S500000x1.Idx → EReal :=
  netOf (posRel m c) (latRows m c)
    (extractStridedSlice S256x256 ![0, 0] (m ((c : Thread nD τ).loc main_arg5)) slices_S259x256_S256x256_0_0)
    (extractStridedSlice S3x256 ![256, 0] (m ((c : Thread nD τ).loc main_arg5)) slices_S259x256_S3x256_256_0)
    (m ((c : Thread nD τ).loc main_arg6)) (m ((c : Thread nD τ).loc main_arg7)) (m ((c : Thread nD τ).loc main_arg8)) (m ((c : Thread nD τ).loc main_arg9)) (m ((c : Thread nD τ).loc main_arg10))
    (extractStridedSlice S256x1 ![0, 0] (m ((c : Thread nD τ).loc main_arg11)) slices_S256x2_S256x1_0_0)
    (extractStridedSlice S1 ![0] (m ((c : Thread nD τ).loc main_arg12)) slices_S2_S1_0)

theorem G_eq (c : Dev nD) : G m c = Gm m c := by
  show netOf (V m c main_v15) (V m c main_v22) (V m c main_v23) (V m c main_v24) (V m c main_arg6) (V m c main_arg7)
    (V m c main_arg8) (V m c main_arg9) (V m c main_arg10) (V m c main_v25) (V m c main_v26) = _
  rw [V_v15, V_v22, V_v23, V_v24, V_v25, V_v26, V_main_arg6, V_main_arg7, V_main_arg8, V_main_arg9, V_main_arg10]

/-- The host line after the region lays the column out as a vector. -/
theorem result_eq (c : Dev nD) :
    Pipeline.afterTail₀ cfgs (dats m) 0 (V0 m) [hostOps1] c main_v28
      = shapeCast S500000 (Gm m c) shapeCasts_S500000x1_S500000 := by
  unfold Pipeline.afterTail₀
  show StableHlo.after hostOps1 _ (Proc.devRef .tc main_v28) = _
  after_results
  rw [(Pipeline.withArrays_arr spec0 launch0.win.arr_inj c _ _ 11).trans ((column m c).trans (G_eq m c))]
  rfl

/-- The kernel program's run: every weakly fair execution terminates with the result at the network of the arguments,
    laid out as a vector, and the arguments unchanged. -/
theorem run : θ_run defs (onTc (τ := τ) (main (F := Ideal))) ⟨m, fun _ => 0, ρ⟩ fun r => ∀ c : Dev nD,
      r.2.mem ((c.tc : Thread nD τ).loc main_v28) = shapeCast S500000 (Gm m c) shapeCasts_S500000x1_S500000
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c =>
    ⟨((h c).2 main_v28 (Pipeline.mem_restRefs_of main_v28 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).1 4).trans (((dats m 0 c).arrAt_in 4 rfl _).trans ((A_eq m c 4).trans (V_main_arg6 m c))),
      ((h c).1 5).trans (((dats m 0 c).arrAt_in 5 rfl _).trans ((A_eq m c 5).trans (V_main_arg7 m c))),
      ((h c).1 6).trans (((dats m 0 c).arrAt_in 6 rfl _).trans ((A_eq m c 6).trans (V_main_arg8 m c))),
      ((h c).1 7).trans (((dats m 0 c).arrAt_in 7 rfl _).trans ((A_eq m c 7).trans (V_main_arg9 m c))),
      ((h c).1 8).trans (((dats m 0 c).arrAt_in 8 rfl _).trans ((A_eq m c 8).trans (V_main_arg10 m c))),
      ((h c).2 main_arg11 (Pipeline.mem_restRefs_of main_arg11 (by decide) (by decide))).trans (W_main_arg11 m (dats m) c),
      ((h c).2 main_arg12 (Pipeline.mem_restRefs_of main_arg12 (by decide) (by decide))).trans (W_main_arg12 m (dats m) c)⟩)
    (run_main m ρ)

end Cert.KernelIdeal.Hand

end
-- ==== Proof.LibConcatCols.lean ====
/-
  Two matrices joined side by side, read at an entry. For a [K, N₁] matrix and a [K, N₂] matrix concatenated along
  the column axis into a [K, N] matrix, the entry in column q is the left matrix's entry in column q when q < N₁, and the
  right matrix's entry in column q - N₁ otherwise. Consequently a sum over k of x(r, k) * joined(k, q) is the same sum
  against the one matrix the column q falls in: a product with the joined matrix, cut back into its two column ranges,
  is the two products.
-/
import Idealize.ShloMosaic.PureOps.Ideal
import Idealize.ShloMosaic.Lib.Pipeline.Value
import Idealize.ShloMosaic.Lib.ValueIdx

noncomputable section

open scoped BigOperators

namespace Cert.LibConcatCols

open Idealize.ShloMosaic Idealize.ShloMosaic.ValueIdx

variable {α : Type} {K N₁ N₂ N : Nat}

/-- A column of the joined matrix that lies in the left matrix's range is that matrix's column. -/
theorem cols_left (a : (⟨2, ![K, N₁]⟩ : Shape).Idx → α) (b : (⟨2, ![K, N₂]⟩ : Shape).Idx → α)
    (h : Shape.Concatenates [(⟨2, ![K, N₁]⟩ : Shape), ⟨2, ![K, N₂]⟩] ⟨2, ![K, N]⟩ 1)
    (k : Fin K) (q : Fin N) (q' : Fin N₁) (hq : q'.val = q.val) :
    concatenate ⟨2, ![K, N]⟩ 1 [⟨⟨2, ![K, N₁]⟩, a⟩, ⟨⟨2, ![K, N₂]⟩, b⟩] h (ix2 k q) = a (ix2 k q') := by
  refine concatenate_pair_apply_left 1 a b h (ix2 k q) rfl (ix2 k q') fun d => ?_
  match d with
  | ⟨0, _⟩ => rfl
  | ⟨1, _⟩ => exact hq

/-- A column past the left matrix's range is the right matrix's column, the left width less. -/
theorem cols_right (a : (⟨2, ![K, N₁]⟩ : Shape).Idx → α) (b : (⟨2, ![K, N₂]⟩ : Shape).Idx → α)
    (h : Shape.Concatenates [(⟨2, ![K, N₁]⟩ : Shape), ⟨2, ![K, N₂]⟩] ⟨2, ![K, N]⟩ 1)
    (k : Fin K) (q : Fin N) (q' : Fin N₂) (hq : q'.val + N₁ = q.val) :
    concatenate ⟨2, ![K, N]⟩ 1 [⟨⟨2, ![K, N₁]⟩, a⟩, ⟨⟨2, ![K, N₂]⟩, b⟩] h (ix2 k q) = b (ix2 k q') := by
  refine concatenate_pair_apply_right 1 a b h (ix2 k q) rfl rfl (ix2 k q') (fun d hd => ?_) hq
  match d with
  | ⟨0, _⟩ => rfl
  | ⟨1, _⟩ => exact absurd rfl hd

/-- A row of x against a left-range column of the joined matrix is that row against the left matrix's column. -/
theorem sum_cols_left {M : Nat} (x : (⟨2, ![M, K]⟩ : Shape).Idx → EReal)
    (a : (⟨2, ![K, N₁]⟩ : Shape).Idx → EReal) (b : (⟨2, ![K, N₂]⟩ : Shape).Idx → EReal)
    (h : Shape.Concatenates [(⟨2, ![K, N₁]⟩ : Shape), ⟨2, ![K, N₂]⟩] ⟨2, ![K, N]⟩ 1)
    (r : Fin M) (q : Fin N) (q' : Fin N₁) (hq : q'.val = q.val) :
    ∑ k : Fin K, x (ix2 r k) * concatenate ⟨2, ![K, N]⟩ 1 [⟨⟨2, ![K, N₁]⟩, a⟩, ⟨⟨2, ![K, N₂]⟩, b⟩] h (ix2 k q)
      = ∑ k : Fin K, x (ix2 r k) * a (ix2 k q') :=
  Finset.sum_congr rfl fun k _ => by rw [cols_left a b h k q q' hq]

/-- A row of x against a right-range column of the joined matrix is that row against the right matrix's column. -/
theorem sum_cols_right {M : Nat} (x : (⟨2, ![M, K]⟩ : Shape).Idx → EReal)
    (a : (⟨2, ![K, N₁]⟩ : Shape).Idx → EReal) (b : (⟨2, ![K, N₂]⟩ : Shape).Idx → EReal)
    (h : Shape.Concatenates [(⟨2, ![K, N₁]⟩ : Shape), ⟨2, ![K, N₂]⟩] ⟨2, ![K, N]⟩ 1)
    (r : Fin M) (q : Fin N) (q' : Fin N₂) (hq : q'.val + N₁ = q.val) :
    ∑ k : Fin K, x (ix2 r k) * concatenate ⟨2, ![K, N]⟩ 1 [⟨⟨2, ![K, N₁]⟩, a⟩, ⟨⟨2, ![K, N₂]⟩, b⟩] h (ix2 k q)
      = ∑ k : Fin K, x (ix2 r k) * b (ix2 k q') :=
  Finset.sum_congr rfl fun k _ => by rw [cols_right a b h k q q' hq]

end Cert.LibConcatCols

end
-- ==== Proof.HostNet.lean ====
/-
  The network as the host program spells it on whole arrays, on the extended reals.

  The host joins the latent columns and the coordinate columns of every row into one [N, 259] array and multiplies
  it by the whole 259-row weight matrix.  A sum over the 259 joined columns is the sum over the first 256 plus the
  sum over the last 3 — addition of extended reals is commutative and associative, nothing else is used — and in each
  range the joined array is one of its two pieces and the weight matrix one of its two row ranges: `first_host`.
  The later layers are a dot_general, a bias vector laid out as a row and laid over the rows, and a maximum with a
  scalar zero laid over everything.  The result keeps column 0 of a two-column read-out: the entry (e, 0) of
  H Wout + bout reads column 0 of Wout and entry 0 of bout only, which is the read-out through the sliced column
  and the sliced bias: `net_host`.
-/
import Idealize.ShloMosaic.Lib.Pipeline.Value
import Idealize.ShloMosaic.Lib.ValueIdx
import Idealize.ShloMosaic.Lib.ValueLayout
import Idealize.ShloMosaic.PureOps.Ideal.Laws
import proofs.«147186_j59365037965877_2_alg».proof.Proof.LibConcatCols
import proofs.«147186_j59365037965877_2_alg».proof.Proof.Net

noncomputable section

open scoped BigOperators

namespace Cert.HostNet

open Idealize.ShloMosaic Idealize.ShloMosaic.ValueIdx Cert.Net

variable {N : ℕ}

/-- The rectified layer over the joined [N, 259] input is the first layer over the two pieces and the two row
    ranges of the weight matrix. -/
theorem first_host (L : Mat N 256) (P : Mat N 3) (W : Mat 259 256) (B : Mat 1 256)
    (hcat : Shape.Concatenates [(⟨2, ![N, 256]⟩ : Shape), ⟨2, ![N, 3]⟩] ⟨2, ![N, 259]⟩ 1)
    (hs1 : (⟨2, ![259, 256]⟩ : Shape).Slices ![0, 0] ⟨2, ![256, 256]⟩)
    (hs2 : (⟨2, ![259, 256]⟩ : Shape).Slices ![256, 0] ⟨2, ![3, 256]⟩) :
    Cert.Branch.act (concatenate ⟨2, ![N, 259]⟩ 1 [⟨⟨2, ![N, 256]⟩, L⟩, ⟨⟨2, ![N, 3]⟩, P⟩] hcat) W B
      = first L P (extractStridedSlice ⟨2, ![256, 256]⟩ ![0, 0] W hs1)
          (extractStridedSlice ⟨2, ![3, 256]⟩ ![256, 0] W hs2) B := by
  funext i
  obtain ⟨r, q, rfl⟩ : ∃ (r : Fin N) (q : Fin 256), i = ix2 r q := ⟨i 0, i 1, eq_ix2 i⟩
  have split : ∑ c : Fin 259, concatenate ⟨2, ![N, 259]⟩ 1 [⟨⟨2, ![N, 256]⟩, L⟩, ⟨⟨2, ![N, 3]⟩, P⟩] hcat (ix2 r c)
        * W (ix2 c q)
      = (∑ c : Fin 256, L (ix2 r c) * extractStridedSlice ⟨2, ![256, 256]⟩ ![0, 0] W hs1 (ix2 c q))
        + ∑ c : Fin 3, P (ix2 r c) * extractStridedSlice ⟨2, ![3, 256]⟩ ![256, 0] W hs2 (ix2 c q) := by
    refine (Fin.sum_univ_add (a := 256) (b := 3) fun c : Fin (256 + 3) =>
      concatenate ⟨2, ![N, 259]⟩ 1 [⟨⟨2, ![N, 256]⟩, L⟩, ⟨⟨2, ![N, 3]⟩, P⟩] hcat (ix2 r c) * W (ix2 c q)).trans ?_
    congr 1
    · refine Finset.sum_congr rfl fun c _ => ?_
      rw [Cert.LibConcatCols.cols_left L P hcat r (Fin.castAdd 3 c) c rfl]
      refine congrArg (L (ix2 r c) * ·) ?_
      refine (extractStridedSlice_apply ![0, 0] W hs1 (ix2 c q) (ix2 (Fin.castAdd 3 c) q) fun ax => ?_).symm
      match ax with
      | ⟨0, _⟩ => exact (Nat.zero_add _).symm
      | ⟨1, _⟩ => exact (Nat.zero_add _).symm
    · refine Finset.sum_congr rfl fun c _ => ?_
      rw [Cert.LibConcatCols.cols_right L P hcat r (Fin.natAdd 256 c) c (Nat.add_comm _ _)]
      refine congrArg (P (ix2 r c) * ·) ?_
      refine (extractStridedSlice_apply ![256, 0] W hs2 (ix2 c q) (ix2 (Fin.natAdd 256 c) q) fun ax => ?_).symm
      match ax with
      | ⟨0, _⟩ => rfl
      | ⟨1, _⟩ => exact (Nat.zero_add _).symm
  show max (Cert.Dense.prod _ W (ix2 r q) + B (ix2 (0 : Fin 1) q)) _
    = max ((Cert.Dense.prod L _ (ix2 r q) + Cert.Dense.prod P _ (ix2 r q)) + B (ix2 (0 : Fin 1) q)) _
  rw [Cert.Dense.prod_ix2, Cert.Dense.prod_ix2, Cert.Dense.prod_ix2, split]

/-- Column 0 of a two-column read-out is the read-out through column 0 of the weights and entry 0 of the bias. -/
theorem readout_col0 (H : Mat N 256) (Wout : Mat 256 2) (bout : (⟨1, ![2]⟩ : Shape).Idx → EReal)
    (hb2 : (⟨1, ![2]⟩ : Shape).BroadcastsInDim ⟨2, ![1, 2]⟩ ![1])
    (hsl : (⟨2, ![N, 2]⟩ : Shape).Slices ![0, 0] ⟨2, ![N, 1]⟩)
    (hsW : (⟨2, ![256, 2]⟩ : Shape).Slices ![0, 0] ⟨2, ![256, 1]⟩)
    (hsb : (⟨1, ![2]⟩ : Shape).Slices ![0] ⟨1, ![1]⟩)
    (hc11 : (⟨1, ![1]⟩ : Shape).ShapeCasts ⟨2, ![1, 1]⟩) :
    extractStridedSlice ⟨2, ![N, 1]⟩ ![0, 0]
        (Cert.Dense.biased H Wout (broadcastInDim ⟨2, ![1, 2]⟩ ![1] hb2 bout)) hsl
      = Cert.Dense.biased H (extractStridedSlice ⟨2, ![256, 1]⟩ ![0, 0] Wout hsW)
          (shapeCast ⟨2, ![1, 1]⟩ (extractStridedSlice ⟨1, ![1]⟩ ![0] bout hsb) hc11) := by
  funext i
  obtain ⟨e, u, rfl⟩ : ∃ (e : Fin N) (u : Fin 1), i = ix2 e u := ⟨i 0, i 1, eq_ix2 i⟩
  have hu : u.val = 0 := by omega
  rw [extractStridedSlice_apply ![0, 0] _ hsl (ix2 e u) (ix2 e (0 : Fin 2)) (fun ax => by
    match ax with
    | ⟨0, _⟩ => exact (Nat.zero_add _).symm
    | ⟨1, _⟩ => show (0 : ℕ) = 0 + u.val; omega)]
  show (∑ c : Fin 256, H (ix2 e c) * Wout (ix2 c (0 : Fin 2))) + broadcastInDim ⟨2, ![1, 2]⟩ ![1] hb2 bout (ix2 (0 : Fin 1) (0 : Fin 2))
    = (∑ c : Fin 256, H (ix2 e c) * extractStridedSlice ⟨2, ![256, 1]⟩ ![0, 0] Wout hsW (ix2 c u))
      + shapeCast ⟨2, ![1, 1]⟩ (extractStridedSlice ⟨1, ![1]⟩ ![0] bout hsb) hc11 (ix2 (0 : Fin 1) u)
  congr 1
  · refine Finset.sum_congr rfl fun c _ => ?_
    refine congrArg (H (ix2 e c) * ·) ?_
    refine (extractStridedSlice_apply ![0, 0] Wout hsW (ix2 c u) (ix2 c (0 : Fin 2)) fun ax => ?_).symm
    match ax with
    | ⟨0, _⟩ => exact (Nat.zero_add _).symm
    | ⟨1, _⟩ => show (0 : ℕ) = 0 + u.val; omega
  · rw [shapeCast_a_1a_apply,
      extractStridedSlice_apply ![0] bout hsb (ix1 u) (ix1 (0 : Fin 2)) (fun ax => by
        match ax with
        | ⟨0, _⟩ => show (0 : ℕ) = 0 + u.val; omega)]
    refine broadcastInDim_apply ![1] hb2 bout (ix2 (0 : Fin 1) (0 : Fin 2)) (ix1 (0 : Fin 2)) fun ax => ?_
    match ax with
    | ⟨0, _⟩ => rfl

section Whole

variable (d259 : DotDims ⟨2, ![N, 259]⟩ ⟨2, ![259, 256]⟩ ⟨2, ![N, 256]⟩)
  (hXlc : d259.lhsContracting = [1]) (hXrc : d259.rhsContracting = [0]) (hXln : d259.lhsNonContracting = [0])
  (hXrn : d259.rhsNonContracting = [1]) (hXlb : d259.lhsBatch = []) (hXrb : d259.rhsBatch = [])
  (d256 : DotDims ⟨2, ![N, 256]⟩ ⟨2, ![256, 256]⟩ ⟨2, ![N, 256]⟩)
  (hYlc : d256.lhsContracting = [1]) (hYrc : d256.rhsContracting = [0]) (hYln : d256.lhsNonContracting = [0])
  (hYrn : d256.rhsNonContracting = [1]) (hYlb : d256.lhsBatch = []) (hYrb : d256.rhsBatch = [])
  (d2 : DotDims ⟨2, ![N, 256]⟩ ⟨2, ![256, 2]⟩ ⟨2, ![N, 2]⟩)
  (hZlc : d2.lhsContracting = [1]) (hZrc : d2.rhsContracting = [0]) (hZln : d2.lhsNonContracting = [0])
  (hZrn : d2.rhsNonContracting = [1]) (hZlb : d2.lhsBatch = []) (hZrb : d2.rhsBatch = [])

include hXlc hXrc hXln hXrn hXlb hXrb hYlc hYrc hYln hYrn hYlb hYrb hZlc hZrc hZln hZrn hZlb hZrb in
/-- The host program's result before its last reshape, as one function of its arrays: the network, with the
    weight matrix of the first layer cut into its two row ranges, the bias vectors as rows, and the read-out through
    column 0. -/
theorem net_host (L : FVec Ideal ⟨2, ![N, 256]⟩ .f32) (P : FVec Ideal ⟨2, ![N, 3]⟩ .f32)
    (Win : FVec Ideal ⟨2, ![259, 256]⟩ .f32) (bin : FVec Ideal ⟨1, ![256]⟩ .f32)
    (W1 : FVec Ideal ⟨2, ![256, 256]⟩ .f32) (b1 : FVec Ideal ⟨1, ![256]⟩ .f32)
    (W2 : FVec Ideal ⟨2, ![256, 256]⟩ .f32) (b2 : FVec Ideal ⟨1, ![256]⟩ .f32)
    (Wout : FVec Ideal ⟨2, ![256, 2]⟩ .f32) (bout : FVec Ideal ⟨1, ![2]⟩ .f32)
    (hcat : Shape.Concatenates [(⟨2, ![N, 256]⟩ : Shape), ⟨2, ![N, 3]⟩] ⟨2, ![N, 259]⟩ 1)
    (hB : (⟨2, ![1, 256]⟩ : Shape).BroadcastsInDim ⟨2, ![N, 256]⟩ ![0, 1])
    (hb1 : (⟨1, ![256]⟩ : Shape).BroadcastsInDim ⟨2, ![1, 256]⟩ ![1])
    (h0 : (⟨0, ![]⟩ : Shape).BroadcastsInDim ⟨2, ![N, 256]⟩ ![])
    (hB2 : (⟨2, ![1, 2]⟩ : Shape).BroadcastsInDim ⟨2, ![N, 2]⟩ ![0, 1])
    (hb2 : (⟨1, ![2]⟩ : Shape).BroadcastsInDim ⟨2, ![1, 2]⟩ ![1])
    (hsl : (⟨2, ![N, 2]⟩ : Shape).Slices ![0, 0] ⟨2, ![N, 1]⟩)
    (hs1 : (⟨2, ![259, 256]⟩ : Shape).Slices ![0, 0] ⟨2, ![256, 256]⟩)
    (hs2 : (⟨2, ![259, 256]⟩ : Shape).Slices ![256, 0] ⟨2, ![3, 256]⟩)
    (hsW : (⟨2, ![256, 2]⟩ : Shape).Slices ![0, 0] ⟨2, ![256, 1]⟩)
    (hsb : (⟨1, ![2]⟩ : Shape).Slices ![0] ⟨1, ![1]⟩)
    (hrow : (⟨1, ![256]⟩ : Shape).ShapeCasts ⟨2, ![1, 256]⟩)
    (hc11 : (⟨1, ![1]⟩ : Shape).ShapeCasts ⟨2, ![1, 1]⟩) :
    extractStridedSlice ⟨2, ![N, 1]⟩ ![0, 0]
        (addf (φ := .f32)
          (Host.dotGeneral (F := Ideal) d2 none
            (addf (φ := .f32)
              (Host.dotGeneral (F := Ideal) d256 none
                (maximumf (φ := .f32)
                  (addf (φ := .f32)
                    (Host.dotGeneral (F := Ideal) d256 none
                      (maximumf (φ := .f32)
                        (addf (φ := .f32)
                          (Host.dotGeneral (F := Ideal) d259 none
                            (concatenate ⟨2, ![N, 259]⟩ 1 [⟨⟨2, ![N, 256]⟩, L⟩, ⟨⟨2, ![N, 3]⟩, P⟩] hcat) Win)
                          (broadcastInDim ⟨2, ![N, 256]⟩ ![0, 1] hB (broadcastInDim ⟨2, ![1, 256]⟩ ![1] hb1 bin)))
                        (broadcastInDim ⟨2, ![N, 256]⟩ ![] h0 (constant (F := Ideal) ⟨0, ![]⟩ .f32 0x00000000#32)))
                      W1)
                    (broadcastInDim ⟨2, ![N, 256]⟩ ![0, 1] hB (broadcastInDim ⟨2, ![1, 256]⟩ ![1] hb1 b1)))
                  (broadcastInDim ⟨2, ![N, 256]⟩ ![] h0 (constant (F := Ideal) ⟨0, ![]⟩ .f32 0x00000000#32)))
                W2)
              (broadcastInDim ⟨2, ![N, 256]⟩ ![0, 1] hB (broadcastInDim ⟨2, ![1, 256]⟩ ![1] hb1 b2)))
            Wout)
          (broadcastInDim ⟨2, ![N, 2]⟩ ![0, 1] hB2 (broadcastInDim ⟨2, ![1, 2]⟩ ![1] hb2 bout)))
        hsl
      = net L P (extractStridedSlice ⟨2, ![256, 256]⟩ ![0, 0] Win hs1)
          (extractStridedSlice ⟨2, ![3, 256]⟩ ![256, 0] Win hs2) (shapeCast ⟨2, ![1, 256]⟩ bin hrow)
          W1 (shapeCast ⟨2, ![1, 256]⟩ b1 hrow) W2 (shapeCast ⟨2, ![1, 256]⟩ b2 hrow)
          (extractStridedSlice ⟨2, ![256, 1]⟩ ![0, 0] Wout hsW)
          (shapeCast ⟨2, ![1, 1]⟩ (extractStridedSlice ⟨1, ![1]⟩ ![0] bout hsb) hc11) := by
  rw [Cert.Branch.host_act d259 hXlc hXrc hXln hXrn hXlb hXrb, first_host L P Win _ hcat hs1 hs2,
    Cert.Branch.host_act d256 hYlc hYrc hYln hYrn hYlb hYrb,
    ← Cert.Dense.biased_eq_host d256 hYlc hYrc hYln hYrn hYlb hYrb,
    ← Cert.Dense.biased_eq_host d2 hZlc hZrc hZln hZrn hZlb hZrb,
    ← Cert.Dense.row_cast_eq_bcast bin hrow hb1, ← Cert.Dense.row_cast_eq_bcast b1 hrow hb1,
    ← Cert.Dense.row_cast_eq_bcast b2 hrow hb1]
  exact readout_col0 _ Wout bout hb2 hsl hsW hsb hc11

end Whole

end Cert.HostNet

end
-- ==== Proof.lean ====
/-
  The kernel — a four-layer perceptron over 500000 edges, run in 125 blocks of 4000 rows on the matrix unit — against
  its reference in plain array operations, on the extended reals.

  Both programs gather, per edge, a row of latent features and the difference of two rows of coordinates (the same
  gathers, from the same row numbers), and push the pair through
      h0 = max ([lat | pos] W_in + b_in) 0,  h1 = max (h0 W1 + b1) 0,  h2 = h1 W2 + b2,  out = (h2 W_out + b_out)[:, 0].
  The kernel multiplies the latent columns and the coordinate columns by the two row ranges of W_in and adds the two
  products, where the reference joins the columns and multiplies once: a sum over 259 terms taken as 256 terms plus
  3 terms.  The kernel reads out through column 0 of W_out and entry 0 of b_out, where the reference computes both
  columns and keeps column 0.  It rounds operands to bfloat16, which is the identity on the extended reals.  Nothing
  else differs, so the two results are one function of the arguments (`Cert.Net.net`): the kernel's side is
  `Cert.KernelIdeal.Hand.run` (block by block, over the generated frame), the reference's its generated run read
  through `Cert.HostNet.net_host`.  The ideal pass rewrote nothing, so the idealization claim is trivial, and the
  three frames are the generated ones.  No law used needs finite inputs.
-/
import proofs.«147186_j59365037965877_2_alg».proof.Defs
import proofs.«147186_j59365037965877_2_alg».proof.Proof.Gen.Kernel
import proofs.«147186_j59365037965877_2_alg».proof.Proof.Gen.Kernel.Skeleton
import proofs.«147186_j59365037965877_2_alg».proof.Proof.Gen.Kernel.Launch
import proofs.«147186_j59365037965877_2_alg».proof.Proof.Gen.Kernel.Points
import proofs.«147186_j59365037965877_2_alg».proof.Proof.Gen.Kernel.Frame
import proofs.«147186_j59365037965877_2_alg».proof.Proof.Gen.KernelIdeal
import proofs.«147186_j59365037965877_2_alg».proof.Proof.Gen.KernelIdeal.Skeleton
import proofs.«147186_j59365037965877_2_alg».proof.Proof.Gen.KernelIdeal.Launch
import proofs.«147186_j59365037965877_2_alg».proof.Proof.Gen.KernelIdeal.Points
import proofs.«147186_j59365037965877_2_alg».proof.Proof.Gen.KernelIdeal.Frame
import proofs.«147186_j59365037965877_2_alg».proof.Proof.Gen.ReferenceIdeal
import proofs.«147186_j59365037965877_2_alg».proof.Proof.Gen.ReferenceIdeal.Run
import proofs.«147186_j59365037965877_2_alg».proof.Proof.Gen.Pre_finite_inputs
import proofs.«147186_j59365037965877_2_alg».proof.Proof.KernelRun
import proofs.«147186_j59365037965877_2_alg».proof.Proof.HostNet
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- From arguments that agree, the kernel's result vector and the reference's are the network of the same arrays. -/
theorem algebraic : Cert.algebraic_KernelIdeal_ReferenceIdeal := by
  intro m ρ m' ρ' _ hagree
  refine ⟨fun c => shapeCast Cert.KernelIdeal.S500000 (Cert.KernelIdeal.Hand.Gm m c) Cert.KernelIdeal.Facts₀.shapeCasts_S500000x1_S500000,
    Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11, e12⟩ := hagree c
  rw [e0, e1, e2, e3, e4, e5, e6, e7, e8, e9, e10, e11, e12]
  refine congrArg (fun X => shapeCast Cert.KernelIdeal.S500000 X Cert.KernelIdeal.Facts₀.shapeCasts_S500000x1_S500000) ?_
  exact Cert.HostNet.net_host Cert.ReferenceIdeal.dot_S500000x259_S259x256_S500000x256_1_0_0_1_n_n rfl rfl rfl rfl rfl rfl
    Cert.ReferenceIdeal.dot_S500000x256_S256x256_S500000x256_1_0_0_1_n_n rfl rfl rfl rfl rfl rfl
    Cert.ReferenceIdeal.dot_S500000x256_S256x2_S500000x2_1_0_0_1_n_n rfl rfl rfl rfl rfl rfl
    (Cert.KernelIdeal.Hand.latRows m c) (Cert.KernelIdeal.Hand.posRel m c)
    (m ((c.tc : Thread Cert.KernelIdeal.nD Cert.KernelIdeal.τ).loc Cert.KernelIdeal.main_arg5)) (m ((c.tc : Thread Cert.KernelIdeal.nD Cert.KernelIdeal.τ).loc Cert.KernelIdeal.main_arg6))
    (m ((c.tc : Thread Cert.KernelIdeal.nD Cert.KernelIdeal.τ).loc Cert.KernelIdeal.main_arg7)) (m ((c.tc : Thread Cert.KernelIdeal.nD Cert.KernelIdeal.τ).loc Cert.KernelIdeal.main_arg8))
    (m ((c.tc : Thread Cert.KernelIdeal.nD Cert.KernelIdeal.τ).loc Cert.KernelIdeal.main_arg9)) (m ((c.tc : Thread Cert.KernelIdeal.nD Cert.KernelIdeal.τ).loc Cert.KernelIdeal.main_arg10))
    (m ((c.tc : Thread Cert.KernelIdeal.nD Cert.KernelIdeal.τ).loc Cert.KernelIdeal.main_arg11)) (m ((c.tc : Thread Cert.KernelIdeal.nD Cert.KernelIdeal.τ).loc Cert.KernelIdeal.main_arg12))
    Cert.ReferenceIdeal.Facts₀.concatenates_S500000x256_S500000x3_S500000x259_d1 Cert.ReferenceIdeal.Facts₀.bcast_S1x256_S500000x256_0_1
    Cert.ReferenceIdeal.Facts₀.bcast_S256_S1x256_1 Cert.ReferenceIdeal.Facts₀.bcast_S_S500000x256 Cert.ReferenceIdeal.Facts₀.bcast_S1x2_S500000x2_0_1 Cert.ReferenceIdeal.Facts₀.bcast_S2_S1x2_1
    Cert.ReferenceIdeal.Facts₀.slices_S500000x2_S500000x1_0_0 Cert.KernelIdeal.Facts₀.slices_S259x256_S256x256_0_0 Cert.KernelIdeal.Facts₀.slices_S259x256_S3x256_256_0
    Cert.KernelIdeal.Facts₀.slices_S256x2_S256x1_0_0 Cert.KernelIdeal.Facts₀.slices_S2_S1_0 Cert.KernelIdeal.Facts₀.shapeCasts_S256_S1x256 Cert.KernelIdeal.Facts₀.shapeCasts_S1_S1x1

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
